-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x64 : Shape := ⟨2, ![256, 64]⟩
abbrev S448x64 : Shape := ⟨2, ![448, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S448x64 : S_.BroadcastsInDim S448x64 (![] : Fin 0 → Fin S448x64.rank)
  reducesTo_S448x64_S_d0_1 : S448x64.ReducesTo [0, 1] S_

variable [Facts]

def fn_part1 {F : FTy → Type} [FloatOps F] (main_v13 : IVec S_ 1) (main_v16 : IVec S448x64 1) : IVec S_ 1 :=
  let main_c_5 : IVec S_ 1 := constantI S_ 1 1#1
  let main_v17 : IVec S_ 1 := (fun x v => Host.reduce IntOp.andi x v reducesTo_S448x64_S_d0_1 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x64 .f32) (main_arg5 : FVec F S448x64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S448x64 .f32 := Host.absf main_arg5
  let main_cst_4 : FVec F S_ .f32 := constant S_ .f32 0x7F800000#32
  let main_v15 : FVec F S448x64 .f32 := broadcastInDim S448x64 ![] bcast_S_S448x64 main_cst_4
  let main_v16 : IVec S448x64 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x64 : Shape := ⟨2, ![256, 64]⟩
abbrev S448x64 : Shape := ⟨2, ![448, 64]⟩
abbrev S50000x64 : Shape := ⟨2, ![50000, 64]⟩
abbrev S5000x256 : Shape := ⟨2, ![5000, 256]⟩
abbrev S5000x64 : Shape := ⟨2, ![5000, 64]⟩
abbrev S800000x1 : Shape := ⟨2, ![800000, 1]⟩
abbrev S_ : Shape := ⟨0, ![]⟩
abbrev S800000x64 : Shape := ⟨2, ![800000, 64]⟩
abbrev S50000x128 : Shape := ⟨2, ![50000, 128]⟩
abbrev S5000x128 : Shape := ⟨2, ![5000, 128]⟩
abbrev S800000x128 : Shape := ⟨2, ![800000, 128]⟩
abbrev S64x64 : Shape := ⟨2, ![64, 64]⟩
abbrev S128x64 : Shape := ⟨2, ![128, 64]⟩
abbrev S5000 : Shape := ⟨1, ![5000]⟩
abbrev S5000x1 : Shape := ⟨2, ![5000, 1]⟩

abbrev nBuf : Space → Nat
  | .hbm => 77
  | .vmem => 32
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x64, .f32⟩
  | .hbm, ⟨5, _⟩ => ⟨S448x64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x128, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S800000x1, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x256, .f32⟩
  | .hbm, ⟨73, _⟩ => ⟨S64x64, .f32⟩
  | .hbm, ⟨74, _⟩ => ⟨S128x64, .f32⟩
  | .hbm, ⟨75, _⟩ => ⟨S256x64, .f32⟩
  | .hbm, ⟨76, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x256, .f32⟩
  | .local _ .vmem, ⟨20, _⟩ => ⟨S5000x256, .f32⟩
  | .local _ .vmem, ⟨21, _⟩ => ⟨S5000x64, .f32⟩
  | .local _ .vmem, ⟨22, _⟩ => ⟨S5000x64, .f32⟩
  | .local _ .vmem, ⟨23, _⟩ => ⟨S5000x128, .f32⟩
  | .local _ .vmem, ⟨24, _⟩ => ⟨S5000x128, .f32⟩
  | .local _ .vmem, ⟨25, _⟩ => ⟨S5000x256, .f32⟩
  | .local _ .vmem, ⟨26, _⟩ => ⟨S5000x256, .f32⟩
  | .local _ .vmem, ⟨27, _⟩ => ⟨S64x64, .f32⟩
  | .local _ .vmem, ⟨28, _⟩ => ⟨S128x64, .f32⟩
  | .local _ .vmem, ⟨29, _⟩ => ⟨S256x64, .f32⟩
  | .local _ .vmem, ⟨30, _⟩ => ⟨S5000x64, .f32⟩
  | .local _ .vmem, ⟨31, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  concatenates_S5000x128_S5000x128_S5000x256_d1 : Shape.Concatenates [S5000x128, S5000x128] S5000x256 1
  slices_S448x64_S64x64_0_0 : S448x64.Slices ![0, 0] S64x64
  slices_S448x64_S128x64_64_0 : S448x64.Slices ![64, 0] S128x64
  slices_S448x64_S256x64_192_0 : S448x64.Slices ![192, 0] S256x64
  shapeCasts_S5000x256_S5000x256 : S5000x256.ShapeCasts S5000x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S256x64_S256x64 : S256x64.ShapeCasts S256x64
  reduces_S5000x64_S5000 : S5000x64.Reduces [1] S5000
  shapeCasts_S5000_S5000x1 : S5000.ShapeCasts S5000x1
  broadcasts_S5000x1_S5000x64 : S5000x1.Broadcasts S5000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x64_S64x64_S5000x64_1_0_0_1_n_n_wf : DotDims.WF S5000x64 S64x64 S5000x64 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x64.size a ≤ S256x64.size a
  hwx3_5 : ∀ i : grid3.Coords, EltTy.bits .f32 = 32 ∨ (Rect.block (s := S256x64) S256x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S256x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x256 : Shape := ⟨2, ![50000, 256]⟩
abbrev S800000 : Shape := ⟨1, ![800000]⟩
abbrev S256x64 : Shape := ⟨2, ![256, 64]⟩
abbrev S448x64 : Shape := ⟨2, ![448, 64]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S800000x128 : Shape := ⟨2, ![800000, 128]⟩
abbrev S50000x448 : Shape := ⟨2, ![50000, 448]⟩
abbrev S50000 : Shape := ⟨1, ![50000]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x64, .f32⟩
  | .hbm, ⟨5, _⟩ => ⟨S448x64, .f32⟩
  | .hbm, ⟨6, _⟩ => ⟨S50000x64, .f32⟩
  | .hbm, ⟨7, _⟩ => ⟨S_, .f32⟩
  | .hbm, ⟨8, _⟩ => ⟨S50000x64, .f32⟩
  | .hbm, ⟨9, _⟩ => ⟨S50000x64, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S50000x448, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call2_cst : Ref sig .tc := ⟨.hbm, 85, rfl⟩
abbrev main_call2_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  concatenates_S50000x128_S50000x128_S50000x256_d1 : Shape.Concatenates [S50000x128, S50000x128] S50000x256 1
  bcast_S_S50000x256 : S_.BroadcastsInDim S50000x256 (![] : Fin 0 → Fin S50000x256.rank)
  concatenates_S50000x64_S50000x128_S50000x256_S50000x448_d1 : Shape.Concatenates [S50000x64, S50000x128, S50000x256] S50000x448 1
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x448_S448x64_S50000x64_1_0_0_1_n_n_wf : DotDims.WF S50000x448 S448x64 S50000x64 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x448_S448x64_S50000x64_1_0_0_1_n_n : DotDims S50000x448 S448x64 S50000x64 where
  lhsContracting := [1]
  rhsContracting := [0]
  lhsNonContracting := [0]
  rhsNonContracting := [1]
  lhsBatch := []
  rhsBatch := []
  wf := dot_S50000x448_S448x64_S50000x64_1_0_0_1_n_n_wf

class Facts : Prop extends Facts₀ where

variable [Facts]
-- ==== Proof.KRun.lean ====
/-
  The idealized kernel's run with every buffer named at the end: every weakly fair execution terminates, nothing
  faulting, and each buffer that outlives the regions holds what the fold through the program leaves there — the launch
  contents carried through region 0's write-backs, the first stretch of host operations, region 1's write-backs, and so
  on to region 3's. The result buffer is one of them (`run_result`), and the arguments end as launched.
-/
import proofs.«102055_j4252017623285_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the regions ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c b hb)

/-- The result buffer ends at the last boundary's contents, and the arguments as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_all m ρ)

end Cert.KernelIdeal.Run

end
-- ==== Proof.KTerms.lean ====
/-
  The kernel program's host stages between its regions, as functions of whole arrays, each written with the very host
  operations the program applies: the propagation along the edges (gather the source rows, scale by the edge values, add
  into the target rows) at feature widths 64 and 128, and the three blocks of rows of the classifier's weight matrix.
-/
import proofs.«102055_j4252017623285_1_alg».proof.Proof.Gen.KernelIdeal
import Idealize.ShloMosaic.PureOps.Ideal

noncomputable section

namespace Cert.KernelIdeal.Terms

open Cert.KernelIdeal Cert.KernelIdeal.Gen Idealize.ShloMosaic

/-- An array of 800000 edge endpoints (node numbers as 32-bit words). -/
abbrev Ends := (⟨S800000, .i32⟩ : BufTy).Contents (Elt Ideal)

/-- Negative source numbers counted from the end, as an indexing operation reads them. -/
def wrapEnds (cols : Ends) : Ends :=
  select (cmpi .slt cols (broadcastInDim S800000 ![] bcast_S_S800000 (constantI S_ 32 0#32)))
    (addi cols (broadcastInDim S800000 ![] bcast_S_S800000 (constantI S_ 32 50000#32))) cols

/-- One propagation along the edges at feature width 64: row `rows e` receives `vals e` times row `cols e`. -/
def spread64 (rows cols : Ends) (vals : FVec Ideal S800000 .f32) (R : FVec Ideal S50000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 R
        (broadcastInDim S800000x1 ![0] bcast_S800000_S800000x1_0 (wrapEnds cols))))

/-- The same at feature width 128. -/
def spread128 (rows cols : Ends) (vals : FVec Ideal S800000 .f32) (R : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 R
        (broadcastInDim S800000x1 ![0] bcast_S800000_S800000x1_0 (wrapEnds cols))))

/-- The classifier's weight rows 0–63, 64–191 and 192–447. -/
def weights0 (W : FVec Ideal S448x64 .f32) : FVec Ideal S64x64 .f32 := extractStridedSlice S64x64 ![0, 0] W slices_S448x64_S64x64_0_0
def weights1 (W : FVec Ideal S448x64 .f32) : FVec Ideal S128x64 .f32 := extractStridedSlice S128x64 ![64, 0] W slices_S448x64_S128x64_64_0
def weights2 (W : FVec Ideal S448x64 .f32) : FVec Ideal S256x64 .f32 := extractStridedSlice S256x64 ![192, 0] W slices_S448x64_S256x64_192_0

end Cert.KernelIdeal.Terms

end
-- ==== Proof.LibAfterAppend.lean ====
/-
  General lemma: running a line of host operations that is two lines end to end is running the first, then the second from
  the buffer contents the first leaves.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo

end
-- ==== Proof.KHost.lean ====
/-
  The kernel program's stretches of host operations between its regions, read. The first two stretches are each two
  propagations along the edges, one after the other; the third cuts the classifier's weight matrix into its three blocks
  of rows. After a stretch, from any buffer contents `V`, each result buffer holds the stage's function (Terms) of the
  buffers the stage reads, and the buffers later stages still need are as `V` had them.
-/
import proofs.«102055_j4252017623285_1_alg».proof.Proof.Gen.KernelIdeal.Launch
import proofs.«102055_j4252017623285_1_alg».proof.Proof.KTerms
import proofs.«102055_j4252017623285_1_alg».proof.Proof.LibAfterAppend

set_option maxRecDepth 8192
-- a stretch of sixteen operations is read in one pass over its fold, past the default budget
set_option maxHeartbeats 4000000

noncomputable section

namespace Cert.KernelIdeal.Host

open Cert.KernelIdeal Cert.KernelIdeal.Gen Cert.KernelIdeal.Terms Idealize.ShloMosaic Idealize.ShloMosaic.TcCoe Idealize.SL.Sem Idealize.ShloMosaic.StableHlo

variable {F : FTy → Type} [FloatOps F]

/-- The first propagation at width 64 (from region 0's output `main_v0` into `main_v13`). -/
abbrev stretch1a : List (HloOp τ sig (Elt F)) :=
  [ StableHlo.unary main_arg3 main_v1 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v2 (broadcastInDim S800000 ![] bcast_S_S800000 : (⟨S_, .i32⟩ : BufTy).Contents (Elt F) → (⟨S800000, .i32⟩ : BufTy).Contents (Elt F)),
    StableHlo.binary main_arg2 main_v2 main_v3 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v4 (broadcastInDim S800000 ![] bcast_S_S800000 : (⟨S_, .i32⟩ : BufTy).Contents (Elt F) → (⟨S800000, .i32⟩ : BufTy).Contents (Elt F)),
    StableHlo.binary main_arg2 main_v4 main_v5 (addi : (⟨S800000, .i32⟩ : BufTy).Contents (Elt F) → (⟨S800000, .i32⟩ : BufTy).Contents (Elt F) → (⟨S800000, .i32⟩ : BufTy).Contents (Elt F)),
    StableHlo.ternary main_v3 main_v5 main_arg2 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v6 main_v7 (broadcastInDim S800000x1 ![0] bcast_S800000_S800000x1_0 : (⟨S800000, .i32⟩ : BufTy).Contents (Elt F) → (⟨S800000x1, .i32⟩ : BufTy).Contents (Elt F)),
    StableHlo.binary main_v0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v1 main_v9 (broadcastInDim S800000x64 ![0, 1] bcast_S800000x1_S800000x64_0_1 : (⟨S800000x1, .f32⟩ : BufTy).Contents (Elt F) → (⟨S800000x64, .f32⟩ : BufTy).Contents (Elt F)),
    StableHlo.binary main_v9 main_v8 main_v10 (mulf : (⟨S800000x64, .f32⟩ : BufTy).Contents (Elt F) → (⟨S800000x64, .f32⟩ : BufTy).Contents (Elt F) → (⟨S800000x64, .f32⟩ : BufTy).Contents (Elt F)),
    StableHlo.nullary main_cst (constant S_ .f32 0x00000000#32),
    StableHlo.unary main_cst main_v11 (broadcastInDim S50000x64 ![] bcast_S_S50000x64 : (⟨S_, .f32⟩ : BufTy).Contents (Elt F) → (⟨S50000x64, .f32⟩ : BufTy).Contents (Elt F)),
    StableHlo.unary main_arg1 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The second propagation at width 64 (from `main_v13` into `main_v26`). -/
abbrev stretch1b : List (HloOp τ sig (Elt F)) :=
  [ StableHlo.unary main_arg3 main_v14 (broadcastInDim S800000x1 ![0] bcast_S800000_S800000x1_0 : (⟨S800000, .f32⟩ : BufTy).Contents (Elt F) → (⟨S800000x1, .f32⟩ : BufTy).Contents (Elt F)),
    StableHlo.nullary main_c_1 (constantI S_ 32 0#32),
    StableHlo.unary main_c_1 main_v15 (broadcastInDim S800000 ![] bcast_S_S800000 : (⟨S_, .i32⟩ : BufTy).Contents (Elt F) → (⟨S800000, .i32⟩ : BufTy).Contents (Elt F)),
    StableHlo.binary main_arg2 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v17 (broadcastInDim S800000 ![] bcast_S_S800000 : (⟨S_, .i32⟩ : BufTy).Contents (Elt F) → (⟨S800000, .i32⟩ : BufTy).Contents (Elt F)),
    StableHlo.binary main_arg2 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg2 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v13 main_v20 main_v21 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v14 main_v22 (broadcastInDim S800000x64 ![0, 1] bcast_S800000x1_S800000x64_0_1 : (⟨S800000x1, .f32⟩ : BufTy).Contents (Elt F) → (⟨S800000x64, .f32⟩ : BufTy).Contents (Elt F)),
    StableHlo.binary main_v22 main_v21 main_v23 (mulf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x00000000#32),
    StableHlo.unary main_cst_3 main_v24 (broadcastInDim S50000x64 ![] bcast_S_S50000x64 : (⟨S_, .f32⟩ : BufTy).Contents (Elt F) → (⟨S50000x64, .f32⟩ : BufTy).Contents (Elt F)),
    StableHlo.unary main_arg1 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The first propagation at width 128 (from region 1's output `main_v27` into `main_v40`). -/
abbrev stretch2a : List (HloOp τ sig (Elt F)) :=
  [ StableHlo.unary main_arg3 main_v28 (broadcastInDim S800000x1 ![0] bcast_S800000_S800000x1_0 : (⟨S800000, .f32⟩ : BufTy).Contents (Elt F) → (⟨S800000x1, .f32⟩ : BufTy).Contents (Elt F)),
    StableHlo.nullary main_c_4 (constantI S_ 32 0#32),
    StableHlo.unary main_c_4 main_v29 (broadcastInDim S800000 ![] bcast_S_S800000 : (⟨S_, .i32⟩ : BufTy).Contents (Elt F) → (⟨S800000, .i32⟩ : BufTy).Contents (Elt F)),
    StableHlo.binary main_arg2 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v31 (broadcastInDim S800000 ![] bcast_S_S800000 : (⟨S_, .i32⟩ : BufTy).Contents (Elt F) → (⟨S800000, .i32⟩ : BufTy).Contents (Elt F)),
    StableHlo.binary main_arg2 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_arg2 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v27 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v28 main_v36 (broadcastInDim S800000x128 ![0, 1] bcast_S800000x1_S800000x128_0_1 : (⟨S800000x1, .f32⟩ : BufTy).Contents (Elt F) → (⟨S800000x128, .f32⟩ : BufTy).Contents (Elt F)),
    StableHlo.binary main_v36 main_v35 main_v37 (mulf : (⟨S800000x128, .f32⟩ : BufTy).Contents (Elt F) → (⟨S800000x128, .f32⟩ : BufTy).Contents (Elt F) → (⟨S800000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_arg1 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second propagation at width 128 (from `main_v40` into `main_v53`). -/
abbrev stretch2b : List (HloOp τ sig (Elt F)) :=
  [ StableHlo.unary main_arg3 main_v41 (broadcastInDim S800000x1 ![0] bcast_S800000_S800000x1_0 : (⟨S800000, .f32⟩ : BufTy).Contents (Elt F) → (⟨S800000x1, .f32⟩ : BufTy).Contents (Elt F)),
    StableHlo.nullary main_c_7 (constantI S_ 32 0#32),
    StableHlo.unary main_c_7 main_v42 (broadcastInDim S800000 ![] bcast_S_S800000 : (⟨S_, .i32⟩ : BufTy).Contents (Elt F) → (⟨S800000, .i32⟩ : BufTy).Contents (Elt F)),
    StableHlo.binary main_arg2 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v44 (broadcastInDim S800000 ![] bcast_S_S800000 : (⟨S_, .i32⟩ : BufTy).Contents (Elt F) → (⟨S800000, .i32⟩ : BufTy).Contents (Elt F)),
    StableHlo.binary main_arg2 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_arg2 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v40 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v41 main_v49 (broadcastInDim S800000x128 ![0, 1] bcast_S800000x1_S800000x128_0_1 : (⟨S800000x1, .f32⟩ : BufTy).Contents (Elt F) → (⟨S800000x128, .f32⟩ : BufTy).Contents (Elt F)),
    StableHlo.binary main_v49 main_v48 main_v50 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v51 (broadcastInDim S50000x128 ![] bcast_S_S50000x128 : (⟨S_, .f32⟩ : BufTy).Contents (Elt F) → (⟨S50000x128, .f32⟩ : BufTy).Contents (Elt F)),
    StableHlo.unary main_arg1 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Each of the first two stretches is its two propagations end to end. -/
theorem hostOps1_eq : (hostOps1 : List (HloOp τ sig (Elt Ideal))) = stretch1a ++ stretch1b := rfl
theorem hostOps2_eq : (hostOps2 : List (HloOp τ sig (Elt Ideal))) = stretch2a ++ stretch2b := rfl

variable (V : Valuation τ sig (Elt Ideal))

/-! ## What each propagation leaves in its result buffer, and what it leaves alone -/

theorem spread1a_seg : after (stretch1a (F := Ideal)) V (Proc.devRef .tc main_v13) = spread64 (V (Proc.devRef .tc main_arg1)) (V (Proc.devRef .tc main_arg2)) (V (Proc.devRef .tc main_arg3)) (V (Proc.devRef .tc main_v0)) := by
  after_results_simp
  rfl

theorem spread1a_keeps_main_arg1 : after (stretch1a (F := Ideal)) V (Proc.devRef .tc main_arg1) = V (Proc.devRef .tc main_arg1) := by
  after_results_simp

theorem spread1a_keeps_main_arg2 : after (stretch1a (F := Ideal)) V (Proc.devRef .tc main_arg2) = V (Proc.devRef .tc main_arg2) := by
  after_results_simp

theorem spread1a_keeps_main_arg3 : after (stretch1a (F := Ideal)) V (Proc.devRef .tc main_arg3) = V (Proc.devRef .tc main_arg3) := by
  after_results_simp

theorem spread1a_keeps_main_arg5 : after (stretch1a (F := Ideal)) V (Proc.devRef .tc main_arg5) = V (Proc.devRef .tc main_arg5) := by
  after_results_simp

theorem spread1a_keeps_main_v0 : after (stretch1a (F := Ideal)) V (Proc.devRef .tc main_v0) = V (Proc.devRef .tc main_v0) := by
  after_results_simp

theorem spread1b_seg : after (stretch1b (F := Ideal)) V (Proc.devRef .tc main_v26) = spread64 (V (Proc.devRef .tc main_arg1)) (V (Proc.devRef .tc main_arg2)) (V (Proc.devRef .tc main_arg3)) (V (Proc.devRef .tc main_v13)) := by
  after_results_simp
  rfl

theorem spread1b_keeps_main_arg1 : after (stretch1b (F := Ideal)) V (Proc.devRef .tc main_arg1) = V (Proc.devRef .tc main_arg1) := by
  after_results_simp

theorem spread1b_keeps_main_arg2 : after (stretch1b (F := Ideal)) V (Proc.devRef .tc main_arg2) = V (Proc.devRef .tc main_arg2) := by
  after_results_simp

theorem spread1b_keeps_main_arg3 : after (stretch1b (F := Ideal)) V (Proc.devRef .tc main_arg3) = V (Proc.devRef .tc main_arg3) := by
  after_results_simp

theorem spread1b_keeps_main_arg5 : after (stretch1b (F := Ideal)) V (Proc.devRef .tc main_arg5) = V (Proc.devRef .tc main_arg5) := by
  after_results_simp

theorem spread1b_keeps_main_v0 : after (stretch1b (F := Ideal)) V (Proc.devRef .tc main_v0) = V (Proc.devRef .tc main_v0) := by
  after_results_simp

theorem spread1b_keeps_main_v13 : after (stretch1b (F := Ideal)) V (Proc.devRef .tc main_v13) = V (Proc.devRef .tc main_v13) := by
  after_results_simp

theorem spread2a_seg : after (stretch2a (F := Ideal)) V (Proc.devRef .tc main_v40) = spread128 (V (Proc.devRef .tc main_arg1)) (V (Proc.devRef .tc main_arg2)) (V (Proc.devRef .tc main_arg3)) (V (Proc.devRef .tc main_v27)) := by
  after_results_simp
  rfl

theorem spread2a_keeps_main_arg1 : after (stretch2a (F := Ideal)) V (Proc.devRef .tc main_arg1) = V (Proc.devRef .tc main_arg1) := by
  after_results_simp

theorem spread2a_keeps_main_arg2 : after (stretch2a (F := Ideal)) V (Proc.devRef .tc main_arg2) = V (Proc.devRef .tc main_arg2) := by
  after_results_simp

theorem spread2a_keeps_main_arg3 : after (stretch2a (F := Ideal)) V (Proc.devRef .tc main_arg3) = V (Proc.devRef .tc main_arg3) := by
  after_results_simp

theorem spread2a_keeps_main_arg5 : after (stretch2a (F := Ideal)) V (Proc.devRef .tc main_arg5) = V (Proc.devRef .tc main_arg5) := by
  after_results_simp

theorem spread2a_keeps_main_v0 : after (stretch2a (F := Ideal)) V (Proc.devRef .tc main_v0) = V (Proc.devRef .tc main_v0) := by
  after_results_simp

theorem spread2a_keeps_main_v27 : after (stretch2a (F := Ideal)) V (Proc.devRef .tc main_v27) = V (Proc.devRef .tc main_v27) := by
  after_results_simp

theorem spread2b_seg : after (stretch2b (F := Ideal)) V (Proc.devRef .tc main_v53) = spread128 (V (Proc.devRef .tc main_arg1)) (V (Proc.devRef .tc main_arg2)) (V (Proc.devRef .tc main_arg3)) (V (Proc.devRef .tc main_v40)) := by
  after_results_simp
  rfl

theorem spread2b_keeps_main_arg5 : after (stretch2b (F := Ideal)) V (Proc.devRef .tc main_arg5) = V (Proc.devRef .tc main_arg5) := by
  after_results_simp

theorem spread2b_keeps_main_v0 : after (stretch2b (F := Ideal)) V (Proc.devRef .tc main_v0) = V (Proc.devRef .tc main_v0) := by
  after_results_simp

theorem spread2b_keeps_main_v27 : after (stretch2b (F := Ideal)) V (Proc.devRef .tc main_v27) = V (Proc.devRef .tc main_v27) := by
  after_results_simp

theorem spread2b_keeps_main_v40 : after (stretch2b (F := Ideal)) V (Proc.devRef .tc main_v40) = V (Proc.devRef .tc main_v40) := by
  after_results_simp

/-! ## The first two stretches whole -/

theorem hostOps1_main_v13 : after (hostOps1 (F := Ideal)) V (Proc.devRef .tc main_v13)
    = spread64 (V (Proc.devRef .tc main_arg1)) (V (Proc.devRef .tc main_arg2)) (V (Proc.devRef .tc main_arg3)) (V (Proc.devRef .tc main_v0)) := by
  rw [hostOps1_eq, after_append, spread1b_keeps_main_v13, spread1a_seg]

theorem hostOps1_main_v26 : after (hostOps1 (F := Ideal)) V (Proc.devRef .tc main_v26)
    = spread64 (V (Proc.devRef .tc main_arg1)) (V (Proc.devRef .tc main_arg2)) (V (Proc.devRef .tc main_arg3))
        (spread64 (V (Proc.devRef .tc main_arg1)) (V (Proc.devRef .tc main_arg2)) (V (Proc.devRef .tc main_arg3)) (V (Proc.devRef .tc main_v0))) := by
  rw [hostOps1_eq, after_append, spread1b_seg, spread1a_seg, spread1a_keeps_main_arg1, spread1a_keeps_main_arg2, spread1a_keeps_main_arg3]

theorem hostOps1_keeps_main_arg1 : after (hostOps1 (F := Ideal)) V (Proc.devRef .tc main_arg1) = V (Proc.devRef .tc main_arg1) := by
  rw [hostOps1_eq, after_append, spread1b_keeps_main_arg1, spread1a_keeps_main_arg1]

theorem hostOps1_keeps_main_arg2 : after (hostOps1 (F := Ideal)) V (Proc.devRef .tc main_arg2) = V (Proc.devRef .tc main_arg2) := by
  rw [hostOps1_eq, after_append, spread1b_keeps_main_arg2, spread1a_keeps_main_arg2]

theorem hostOps1_keeps_main_arg3 : after (hostOps1 (F := Ideal)) V (Proc.devRef .tc main_arg3) = V (Proc.devRef .tc main_arg3) := by
  rw [hostOps1_eq, after_append, spread1b_keeps_main_arg3, spread1a_keeps_main_arg3]

theorem hostOps1_keeps_main_arg5 : after (hostOps1 (F := Ideal)) V (Proc.devRef .tc main_arg5) = V (Proc.devRef .tc main_arg5) := by
  rw [hostOps1_eq, after_append, spread1b_keeps_main_arg5, spread1a_keeps_main_arg5]

theorem hostOps1_keeps_main_v0 : after (hostOps1 (F := Ideal)) V (Proc.devRef .tc main_v0) = V (Proc.devRef .tc main_v0) := by
  rw [hostOps1_eq, after_append, spread1b_keeps_main_v0, spread1a_keeps_main_v0]

theorem hostOps2_main_v40 : after (hostOps2 (F := Ideal)) V (Proc.devRef .tc main_v40)
    = spread128 (V (Proc.devRef .tc main_arg1)) (V (Proc.devRef .tc main_arg2)) (V (Proc.devRef .tc main_arg3)) (V (Proc.devRef .tc main_v27)) := by
  rw [hostOps2_eq, after_append, spread2b_keeps_main_v40, spread2a_seg]

theorem hostOps2_main_v53 : after (hostOps2 (F := Ideal)) V (Proc.devRef .tc main_v53)
    = spread128 (V (Proc.devRef .tc main_arg1)) (V (Proc.devRef .tc main_arg2)) (V (Proc.devRef .tc main_arg3))
        (spread128 (V (Proc.devRef .tc main_arg1)) (V (Proc.devRef .tc main_arg2)) (V (Proc.devRef .tc main_arg3)) (V (Proc.devRef .tc main_v27))) := by
  rw [hostOps2_eq, after_append, spread2b_seg, spread2a_seg, spread2a_keeps_main_arg1, spread2a_keeps_main_arg2, spread2a_keeps_main_arg3]

theorem hostOps2_keeps_main_arg5 : after (hostOps2 (F := Ideal)) V (Proc.devRef .tc main_arg5) = V (Proc.devRef .tc main_arg5) := by
  rw [hostOps2_eq, after_append, spread2b_keeps_main_arg5, spread2a_keeps_main_arg5]

theorem hostOps2_keeps_main_v0 : after (hostOps2 (F := Ideal)) V (Proc.devRef .tc main_v0) = V (Proc.devRef .tc main_v0) := by
  rw [hostOps2_eq, after_append, spread2b_keeps_main_v0, spread2a_keeps_main_v0]

theorem hostOps2_keeps_main_v27 : after (hostOps2 (F := Ideal)) V (Proc.devRef .tc main_v27) = V (Proc.devRef .tc main_v27) := by
  rw [hostOps2_eq, after_append, spread2b_keeps_main_v27, spread2a_keeps_main_v27]

/-! ## The third stretch: the weight matrix's three blocks of rows -/

theorem hostOps3_main_v55 : after (hostOps3 (F := Ideal)) V (Proc.devRef .tc main_v55) = weights0 (V (Proc.devRef .tc main_arg5)) := by
  after_results_simp
  rfl
theorem hostOps3_main_v56 : after (hostOps3 (F := Ideal)) V (Proc.devRef .tc main_v56) = weights1 (V (Proc.devRef .tc main_arg5)) := by
  after_results_simp
  rfl
theorem hostOps3_main_v57 : after (hostOps3 (F := Ideal)) V (Proc.devRef .tc main_v57) = weights2 (V (Proc.devRef .tc main_arg5)) := by
  after_results_simp
  rfl
theorem hostOps3_keeps_main_v0 : after (hostOps3 (F := Ideal)) V (Proc.devRef .tc main_v0) = V (Proc.devRef .tc main_v0) := by
  after_results_simp

theorem hostOps3_keeps_main_v27 : after (hostOps3 (F := Ideal)) V (Proc.devRef .tc main_v27) = V (Proc.devRef .tc main_v27) := by
  after_results_simp

theorem hostOps3_keeps_main_v54 : after (hostOps3 (F := Ideal)) V (Proc.devRef .tc main_v54) = V (Proc.devRef .tc main_v54) := by
  after_results_simp

end Cert.KernelIdeal.Host

end
-- ==== Proof.Spec.lean ====
/-
  The mathematics of the graph network's forward pass, row by row, on the extended reals.

  Every dense stage acts on each node's row independently of the other rows:
    * the embedding        e(x)       = max(x · W, 0)                        (a row of 256 features to 64),
    * the hop combination  c(s, t, r) = max([s − r ‖ (t − s) − r], 0)         (three rows of width d to one of width 2d),
    * the classifier       softmax((r0 · W0 + r1 · W1) + r2 · W2)             (rows of 64, 128, 256 to 64 classes),
  where s and t are the once- and twice-propagated features. The propagation along the edges is not spelt
  here: both programs perform it by the very same array operations, so it is carried as an unopened function of arrays.
  The classifier's three partial products are the one product of the joined row [r0 ‖ r1 ‖ r2] with the 448 × 64
  weight matrix whose rows 0–63, 64–191, 192–447 are W0, W1, W2 (`joinedLogits_eq`): a sum over 448 terms cut in three.
-/
import Idealize.ShloMosaic.PureOps.Ideal
import Idealize.ShloMosaic.Lib.ValueIdx

noncomputable section

namespace Cert.Spec

open Idealize.ShloMosaic Idealize.ShloMosaic.ValueIdx

/-- The float word of zero and of minus infinity, as extended reals (never evaluated: the same words on both sides). -/
abbrev zeroW : EReal := Ideal.ofBits .f32 0x00000000#32
abbrev negInfW : EReal := Ideal.ofBits .f32 0xFF800000#32

/-- An `n × d` array of extended reals. -/
abbrev Arr (n d : Nat) := (⟨2, ![n, d]⟩ : Shape).Idx → EReal

/-- Row `i` of an array. -/
def row {n d : Nat} (X : Arr n d) (i : Fin n) : Fin d → EReal := fun k => X (ix2 i k)

/-- Rows `o … o+m-1` of a matrix, as a matrix. -/
def rowsFrom {n d : Nat} (m o : Nat) (h : o + m ≤ n) (W : Arr n d) : Arr m d :=
  fun idx => W (ix2 ⟨o + (idx 0).val, by have := (idx 0).isLt; simp at this; omega⟩ ⟨(idx 1).val, by have := (idx 1).isLt; simpa using this⟩)

/-! ## The embedding -/

/-- A row of features times the weight matrix, clipped at zero. -/
def embedRow (x : Fin 256 → EReal) (W : Arr 256 64) : Fin 64 → EReal :=
  fun j => max (∑ k : Fin 256, x k * W (ix2 k j)) zeroW

/-! ## The hop combination -/

/-- `[s − r ‖ (t − s) − r]` clipped at zero, for rows of width 64. -/
def combineRow64 (s t r : Fin 64 → EReal) : Fin 128 → EReal :=
  fun j => max (if h : j.val < 64 then s ⟨j.val, h⟩ - r ⟨j.val, h⟩
    else (t ⟨j.val - 64, by omega⟩ - s ⟨j.val - 64, by omega⟩) - r ⟨j.val - 64, by omega⟩) zeroW

/-- The same for rows of width 128. -/
def combineRow128 (s t r : Fin 128 → EReal) : Fin 256 → EReal :=
  fun j => max (if h : j.val < 128 then s ⟨j.val, h⟩ - r ⟨j.val, h⟩
    else (t ⟨j.val - 128, by omega⟩ - s ⟨j.val - 128, by omega⟩) - r ⟨j.val - 128, by omega⟩) zeroW

/-! ## The classifier -/

/-- The logits of one node from its three feature rows and the three blocks of the weight matrix, summed in the
    order the kernel sums them. -/
def logitsRow (r0 : Fin 64 → EReal) (r1 : Fin 128 → EReal) (r2 : Fin 256 → EReal)
    (W0 : Arr 64 64) (W1 : Arr 128 64) (W2 : Arr 256 64) : Fin 64 → EReal :=
  fun j => (∑ k : Fin 64, r0 k * W0 (ix2 k j) + ∑ k : Fin 128, r1 k * W1 (ix2 k j)) + ∑ k : Fin 256, r2 k * W2 (ix2 k j)

/-- The three rows joined into one of width 448. -/
def joinRow (r0 : Fin 64 → EReal) (r1 : Fin 128 → EReal) (r2 : Fin 256 → EReal) : Fin 448 → EReal :=
  fun k => if h0 : k.val < 64 then r0 ⟨k.val, h0⟩
    else if h1 : k.val < 192 then r1 ⟨k.val - 64, by omega⟩ else r2 ⟨k.val - 192, by omega⟩

/-- The logits as the reference computes them: the joined row times the whole weight matrix. -/
def joinedLogitsRow (r0 : Fin 64 → EReal) (r1 : Fin 128 → EReal) (r2 : Fin 256 → EReal) (W : Arr 448 64) : Fin 64 → EReal :=
  fun j => ∑ k : Fin 448, joinRow r0 r1 r2 k * W (ix2 k j)

/-- The largest entry of a row, from minus infinity, and once more against minus infinity (as both programs do). -/
def rowTop (l : Fin 64 → EReal) : EReal := max negInfW ((Finset.univ : Finset (Fin 64)).fold max negInfW l)

/-- The softmax of a row of logits: `exp(l j − top) / Σ_k exp(l k − top)`. -/
def softmaxRow (l : Fin 64 → EReal) : Fin 64 → EReal :=
  fun j => Ideal.div (Ideal.exp (l j - rowTop l)) (∑ k : Fin 64, Ideal.exp (l k - rowTop l))

/-! ## The stages on whole arrays: each output row from the same row of the inputs -/

/-- The embedding of every node. -/
def embedArr {n : Nat} (X : Arr n 256) (W : Arr 256 64) : Arr n 64 :=
  fun idx => embedRow (row X (idx 0)) W (idx 1)

/-- The hop combination of every node, widths 64 and 128. -/
def combineArr64 {n : Nat} (S T R : Arr n 64) : Arr n 128 :=
  fun idx => combineRow64 (row S (idx 0)) (row T (idx 0)) (row R (idx 0)) (idx 1)
def combineArr128 {n : Nat} (S T R : Arr n 128) : Arr n 256 :=
  fun idx => combineRow128 (row S (idx 0)) (row T (idx 0)) (row R (idx 0)) (idx 1)

/-- The class probabilities of every node, from the three blocks of the weight matrix (the kernel's arrangement). -/
def classifyArr {n : Nat} (R0 : Arr n 64) (R1 : Arr n 128) (R2 : Arr n 256) (W0 : Arr 64 64) (W1 : Arr 128 64) (W2 : Arr 256 64) :
    Arr n 64 :=
  fun idx => softmaxRow (logitsRow (row R0 (idx 0)) (row R1 (idx 0)) (row R2 (idx 0)) W0 W1 W2) (idx 1)

/-- The class probabilities of every node, from the joined rows and the whole weight matrix (the reference's arrangement). -/
def classifyJoinedArr {n : Nat} (R0 : Arr n 64) (R1 : Arr n 128) (R2 : Arr n 256) (W : Arr 448 64) : Arr n 64 :=
  fun idx => softmaxRow (joinedLogitsRow (row R0 (idx 0)) (row R1 (idx 0)) (row R2 (idx 0)) W) (idx 1)

end Cert.Spec

end
-- ==== Proof.KValue.lean ====
/-
  The kernel's result as ONE function of its six argument arrays: the embedding `r0`; the first hop's features
  `r1 = c(s1, t1, r0)` from one and two propagations `s1`, `t1` of `r0`; the second hop's `r2 = c(s2, t2, r1)` likewise
  from `r1`; and the classifier of `r0`, `r1`, `r2` against the weight matrix's three blocks of rows.
-/
import proofs.«102055_j4252017623285_1_alg».proof.Proof.KTerms
import proofs.«102055_j4252017623285_1_alg».proof.Proof.Spec

noncomputable section

namespace Cert.KernelIdeal.Terms

open Cert.KernelIdeal Cert.KernelIdeal.Gen Idealize.ShloMosaic Cert.Spec

/-- The kernel's result from its arguments. -/
def valueOf (X : FVec Ideal S50000x256 .f32) (rows cols : Ends) (vals : FVec Ideal S800000 .f32)
    (W4 : FVec Ideal S256x64 .f32) (W5 : FVec Ideal S448x64 .f32) : Arr 50000 64 :=
  let r0 : Arr 50000 64 := embedArr X W4
  let s1 : Arr 50000 64 := spread64 rows cols vals r0
  let r1 : Arr 50000 128 := combineArr64 s1 (spread64 rows cols vals s1) r0
  let s2 : Arr 50000 128 := spread128 rows cols vals r1
  let r2 : Arr 50000 256 := combineArr128 s2 (spread128 rows cols vals s2) r1
  classifyArr r0 r1 r2 (weights0 W5) (weights1 W5) (weights2 W5)

end Cert.KernelIdeal.Terms

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.KEmbed.lean ====
/-
  The embedding stage of the kernel as a function of whole arrays.

  The stage walks the 50000 nodes in ten blocks of 5000 rows. At each block it multiplies the block's 5000 × 256 rows
  of features by the whole 256 × 64 weight matrix and clips the product at zero. Entry (p, j) of a block's result is
  therefore max(Σ_k x(p,k) · W(k,j), 0), which depends on row p of the block only; row p of block t is row
  5000 t + p of the feature array, and the ten blocks tile the output, so the output array holds, at every node, the
  embedding of that node's own row.
-/
import proofs.«102055_j4252017623285_1_alg».proof.Proof.Gen.KernelIdeal.Frame
import proofs.«102055_j4252017623285_1_alg».proof.Proof.Spec
import proofs.«102055_j4252017623285_1_alg».proof.Proof.LibDot
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.SL.Sem Cert.Spec
open Idealize.ShloMosaic.Pipeline (Dat)
open Idealize.ShloMosaic.ValueIdx

variable (V : (c : Dev nD) → (b : Ref sig .tc) → Buf (Elt Ideal) ((c : Thread nD τ).loc b))

/-- The offsets (0, 0) are the zero offsets. -/
theorem embed_zero_offsets : (![0, 0] : Fin 2 → Nat) = fun _ => 0 := funext fun a => by fin_cases a <;> rfl

/-! ## One block: entry (p, j) of the clipped product -/

/-- Entry (p, j) of what the body computes from a block of features `x0` and the weights `x1`: the narrowing to the
    short float format changes nothing on the extended reals, the product into a zero accumulator is the sum over the
    256 contracted coordinates, and the maximum with the zero word clips it. -/
theorem embed_at (x0 : Vec Ideal S5000x256 .f32) (x1 : Vec Ideal S256x64 .f32) (p : Fin 5000) (j : Fin 64) :
    k0_pay1 x0 x1 (ix2 p j) = embedRow (fun k => x0 (ix2 p k)) x1 j := by
  unfold k0_pay1 embedRow
  rw [maximumf_apply, broadcast_apply]
  refine congrArg (fun z => max z zeroW) ?_
  unfold dot_S5000x256_S256x64_S5000x64_1_0_0_1_n_n
  exact Cert.LibDot.matmulZero_apply dot_S5000x256_S256x64_S5000x64_1_0_0_1_n_n_wf _ _ p j

/-! ## Where the blocks sit -/

/-- At grid point `t` the feature block and the output block are block `t` along the rows and block 0 along the
    columns; the weight block is block (0, 0), the whole matrix. -/
theorem embed_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `5000 t + p` of the feature array. -/
theorem embed_features_block_at (c : Dev nD) (t : Fin cfg0.N) (p : Fin 5000) (k : Fin 256) (r : Fin 50000)
    (hr : r.val = t.val * 5000 + p.val) :
    (iblk0 V c 0 t : Vec Ideal S5000x256 .f32) (ix2 p k) = (V c main_arg0 : S50000x256.Idx → EReal) (ix2 r k) := by
  obtain ⟨e0, e1, -⟩ := embed_index_maps t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight block at every point is the weight matrix. -/
theorem embed_weights_block (c : Dev nD) (t : Fin cfg0.N) :
    (iblk0 V c 1 t : Vec Ideal S256x64 .f32) = (V c main_arg4 : S256x64.Idx → EReal) := by
  obtain ⟨-, -, e2, e3, -⟩ := embed_index_maps t
  funext y
  unfold iblk0
  rw [View.read_apply]
  show V c main_arg4 _ = V c main_arg4 _
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 64 + 1 * (y 1).val = (y 1).val; rw [e3]; omega

/-! ## From the blocks to the array -/

/-- What point `t` writes back is block `t` of the embedding of the whole feature array: entry (p, j) of the block is
    the embedding of row `5000 t + p` at column `j`. -/
theorem embed_flushed (c : Dev nD) (t : Fin cfg0.N) :
    (dat0 (F := Ideal) V c).flushed 2 t
      = ((cfg0.win 2).blk t).view.read (Elt Ideal) (embedArr (V c main_arg0) (V c main_arg4)) := by
  show (cfg0.win 2).cut (grid0.coords t) ((dat0 V c).after 2 t) = _
  rw [after0_2]
  unfold out0_2
  rw [View.canon_unit_zero embed_zero_offsets]
  simp only [View.ld_unit_zero (S := S5000x256) embed_zero_offsets, View.ld_unit_zero (S := S256x64) embed_zero_offsets]
  rw [embed_weights_block V c t]
  obtain ⟨-, -, -, -, e4, e5⟩ := embed_index_maps t
  funext y
  obtain ⟨p, j, rfl⟩ : ∃ (p : Fin 5000) (j : Fin 64), y = ix2 p j := ⟨y 0, y 1, eq_ix2 y⟩
  have ht : t.val < 10 := t.isLt
  have hp : p.val < 5000 := p.isLt
  show k0_pay1 (iblk0 V c 0 t) (V c main_arg4) (ix2 p j)
    = embedArr (V c main_arg0) (V c main_arg4) (((cfg0.win 2).blk t).view.emb (ix2 p j))
  refine (embed_at _ _ p j).trans ?_
  have hi : ((cfg0.win 2).blk t).view.emb (ix2 p j) = (ix2 (⟨t.val * 5000 + p.val, by omega⟩ : Fin 50000) j : S50000x64.Idx) := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 64 + 1 * j.val = j.val; rw [e5]; omega
  rw [hi]
  show _ = embedRow (row (V c main_arg0) (⟨t.val * 5000 + p.val, by omega⟩ : Fin 50000)) (V c main_arg4) j
  refine congrArg (fun x => embedRow x (V c main_arg4) j) ?_
  funext k
  exact embed_features_block_at V c t p k _ rfl

/-- An index of the output array lies in point `t`'s block iff each coordinate lies in the block's range on its axis. -/
theorem embed_mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The ten blocks cover the output: row `r` lies in the block of point `r / 5000`. -/
theorem embed_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [embed_mem_block]
  obtain ⟨-, -, -, -, e4, e5⟩ := embed_index_maps ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- After the stage the output array is the embedding of the feature array, node by node. -/
theorem embed_region (c : Dev nD) :
    (dat0 (F := Ideal) V c).arrAt 2 cfg0.N = embedArr (V c main_arg0) (V c main_arg4) :=
  (dat0 V c).arrAt_eq_of_cover 2 _ (fun t _ => embed_flushed V c t) embed_cover

end Cert.KernelIdeal.Dense

end
-- ==== Proof.KCombine64.lean ====
/-
  The first hop combination of the kernel as a function of whole arrays.

  The stage walks the 50000 nodes in ten blocks of 5000 rows. At each block it takes the same 5000 rows of three
  arrays of width 64 — the once-propagated features s, the twice-propagated features t and the node's own features r —
  and leaves max([s − r ‖ (t − s) − r], 0), a block of width 128. Entry (p, j) of the result depends on row p of the
  three blocks only; row p of block t is row 5000 t + p of each array, and the ten blocks tile the output, so the output
  array holds, at every node, the combination of that node's own three rows.
-/
import proofs.«102055_j4252017623285_1_alg».proof.Proof.Gen.KernelIdeal.Frame
import proofs.«102055_j4252017623285_1_alg».proof.Proof.Spec
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.SL.Sem Cert.Spec
open Idealize.ShloMosaic.Pipeline (Dat)
open Idealize.ShloMosaic.ValueIdx

variable (V : (c : Dev nD) → (b : Ref sig .tc) → Buf (Elt Ideal) ((c : Thread nD τ).loc b))

/-- The offsets (0, 0) are the zero offsets. -/
theorem combine64_zero_offsets : (![0, 0] : Fin 2 → Nat) = fun _ => 0 := funext fun a => by fin_cases a <;> rfl

/-! ## One block: entry (p, j) of the clipped joined differences -/

/-- Entry (p, j) of what the body computes from blocks `s`, `t`, `r`: the casts to the same shape change nothing; a
    column below 64 falls in the first joined piece, `s − r`, and a column from 64 on in the second, `(t − s) − r`,
    at that column less 64; the maximum with the zero word clips it. -/
theorem combine64_at (s t r : Vec Ideal S5000x64 .f32) (p : Fin 5000) (j : Fin 128) :
    k1_pay1 s t r (ix2 p j)
      = combineRow64 (fun k => s (ix2 p k)) (fun k => t (ix2 p k)) (fun k => r (ix2 p k)) j := by
  unfold k1_pay1 combineRow64
  rw [maximumf_apply, broadcast_apply]
  refine congrArg (fun z => max z zeroW) ?_
  simp only [shapeCast_self]
  by_cases h : j.val < 64
  · rw [dif_pos h]
    exact concatenate_pair_apply_left (t := S5000x128) (s₁ := S5000x64) (s₂ := S5000x64) (1 : Fin 2) _ _
      concatenates_S5000x64_S5000x64_S5000x128_d1 (ix2 p j) rfl (ix2 p (⟨j.val, h⟩ : Fin 64)) (fun b => by
        match b with
        | ⟨0, _⟩ => rfl
        | ⟨1, _⟩ => rfl)
  · rw [dif_neg h]
    exact concatenate_pair_apply_right (t := S5000x128) (s₁ := S5000x64) (s₂ := S5000x64) (1 : Fin 2) _ _
      concatenates_S5000x64_S5000x64_S5000x128_d1 (ix2 p j) rfl rfl (ix2 p (⟨j.val - 64, by omega⟩ : Fin 64))
      (fun b hb => by
        match b with
        | ⟨0, _⟩ => rfl
        | ⟨1, _⟩ => exact absurd rfl hb)
      (by show (j.val - 64) + 64 = j.val; omega)

/-! ## Where the blocks sit -/

/-- At grid point `t` each of the three input blocks and the output block is block `t` along the rows and block 0
    along the columns. -/
theorem combine64_index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `p` of the first input's block at point `t` is row `5000 t + p` of its array. -/
theorem combine64_once_block_at (c : Dev nD) (t : Fin cfg1.N) (p : Fin 5000) (k : Fin 64) (r : Fin 50000)
    (hr : r.val = t.val * 5000 + p.val) :
    (iblk1 V c 0 t : Vec Ideal S5000x64 .f32) (ix2 p k) = (V c main_v13 : S50000x64.Idx → EReal) (ix2 r k) := by
  obtain ⟨e0, e1, -⟩ := combine64_index_maps t
  unfold iblk1
  rw [View.read_apply]
  show V c main_v13 _ = V c main_v13 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The same for the second input. -/
theorem combine64_twice_block_at (c : Dev nD) (t : Fin cfg1.N) (p : Fin 5000) (k : Fin 64) (r : Fin 50000)
    (hr : r.val = t.val * 5000 + p.val) :
    (iblk1 V c 1 t : Vec Ideal S5000x64 .f32) (ix2 p k) = (V c main_v26 : S50000x64.Idx → EReal) (ix2 r k) := by
  obtain ⟨-, -, e2, e3, -⟩ := combine64_index_maps t
  unfold iblk1
  rw [View.read_apply]
  show V c main_v26 _ = V c main_v26 _
  congr 1
  funext a
  apply Fin.ext
  match a with
  | ⟨0, _⟩ => show win1_1.index t (0 : Fin 2) * 5000 + 1 * p.val = r.val; rw [e2, hr]; omega
  | ⟨1, _⟩ => show win1_1.index t (1 : Fin 2) * 64 + 1 * k.val = k.val; rw [e3]; omega

/-- The same for the third input. -/
theorem combine64_own_block_at (c : Dev nD) (t : Fin cfg1.N) (p : Fin 5000) (k : Fin 64) (r : Fin 50000)
    (hr : r.val = t.val * 5000 + p.val) :
    (iblk1 V c 2 t : Vec Ideal S5000x64 .f32) (ix2 p k) = (V c main_v0 : S50000x64.Idx → EReal) (ix2 r k) := by
  obtain ⟨-, -, -, -, e4, e5, -⟩ := combine64_index_maps t
  unfold iblk1
  rw [View.read_apply]
  show V c main_v0 _ = V c main_v0 _
  congr 1
  funext a
  apply Fin.ext
  match a with
  | ⟨0, _⟩ => show win1_2.index t (0 : Fin 2) * 5000 + 1 * p.val = r.val; rw [e4, hr]; omega
  | ⟨1, _⟩ => show win1_2.index t (1 : Fin 2) * 64 + 1 * k.val = k.val; rw [e5]; omega

/-! ## From the blocks to the array -/

/-- What point `t` writes back is block `t` of the combination of the three whole arrays: entry (p, j) of the block
    is the combination of their rows `5000 t + p` at column `j`. -/
theorem combine64_flushed (c : Dev nD) (t : Fin cfg1.N) :
    (dat1 (F := Ideal) V c).flushed 3 t
      = ((cfg1.win 3).blk t).view.read (Elt Ideal) (combineArr64 (V c main_v13) (V c main_v26) (V c main_v0)) := by
  show (cfg1.win 3).cut (grid1.coords t) ((dat1 V c).after 3 t) = _
  rw [after1_3]
  unfold out1_3
  rw [View.canon_unit_zero combine64_zero_offsets]
  simp only [View.ld_unit_zero (S := S5000x64) combine64_zero_offsets]
  obtain ⟨-, -, -, -, -, -, e6, e7⟩ := combine64_index_maps t
  funext y
  obtain ⟨p, j, rfl⟩ : ∃ (p : Fin 5000) (j : Fin 128), y = ix2 p j := ⟨y 0, y 1, eq_ix2 y⟩
  have ht : t.val < 10 := t.isLt
  have hp : p.val < 5000 := p.isLt
  show k1_pay1 (iblk1 V c 0 t) (iblk1 V c 1 t) (iblk1 V c 2 t) (ix2 p j)
    = combineArr64 (V c main_v13) (V c main_v26) (V c main_v0) (((cfg1.win 3).blk t).view.emb (ix2 p j))
  refine (combine64_at _ _ _ p j).trans ?_
  have hi : ((cfg1.win 3).blk t).view.emb (ix2 p j) = (ix2 (⟨t.val * 5000 + p.val, by omega⟩ : Fin 50000) j : S50000x128.Idx) := by
    funext a
    apply Fin.ext
    match a with
    | ⟨0, _⟩ => show win1_3.index t (0 : Fin 2) * 5000 + 1 * p.val = t.val * 5000 + p.val; rw [e6]; omega
    | ⟨1, _⟩ => show win1_3.index t (1 : Fin 2) * 128 + 1 * j.val = j.val; rw [e7]; omega
  rw [hi]
  show _ = combineRow64 (row (V c main_v13) (⟨t.val * 5000 + p.val, by omega⟩ : Fin 50000))
    (row (V c main_v26) (⟨t.val * 5000 + p.val, by omega⟩ : Fin 50000))
    (row (V c main_v0) (⟨t.val * 5000 + p.val, by omega⟩ : Fin 50000)) j
  have hs : (fun k => (iblk1 V c 0 t : Vec Ideal S5000x64 .f32) (ix2 p k))
      = row (V c main_v13) (⟨t.val * 5000 + p.val, by omega⟩ : Fin 50000) :=
    funext fun k => combine64_once_block_at V c t p k _ rfl
  have htw : (fun k => (iblk1 V c 1 t : Vec Ideal S5000x64 .f32) (ix2 p k))
      = row (V c main_v26) (⟨t.val * 5000 + p.val, by omega⟩ : Fin 50000) :=
    funext fun k => combine64_twice_block_at V c t p k _ rfl
  have hr : (fun k => (iblk1 V c 2 t : Vec Ideal S5000x64 .f32) (ix2 p k))
      = row (V c main_v0) (⟨t.val * 5000 + p.val, by omega⟩ : Fin 50000) :=
    funext fun k => combine64_own_block_at V c t p k _ rfl
  rw [hs, htw, hr]

/-- An index of the output array lies in point `t`'s block iff each coordinate lies in the block's range on its axis. -/
theorem combine64_mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- The ten blocks cover the output: row `r` lies in the block of point `r / 5000`. -/
theorem combine64_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [combine64_mem_block]
  obtain ⟨-, -, -, -, -, -, e6, e7⟩ := combine64_index_maps ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- After the stage the output array is the combination of the three input arrays, node by node. -/
theorem combine64_region (c : Dev nD) :
    (dat1 (F := Ideal) V c).arrAt 3 cfg1.N = combineArr64 (V c main_v13) (V c main_v26) (V c main_v0) :=
  (dat1 V c).arrAt_eq_of_cover 3 _ (fun t _ => combine64_flushed V c t) combine64_cover

end Cert.KernelIdeal.Dense

end
-- ==== Proof.KCombine128.lean ====
/-
  The second hop combination of the kernel as a function of whole arrays.

  The stage walks the 50000 nodes in ten blocks of 5000 rows. At each block it takes the same 5000 rows of three
  arrays of width 128 — the once-propagated features s, the twice-propagated features t and the node's own features r —
  and leaves max([s − r ‖ (t − s) − r], 0), a block of width 256. Entry (p, j) of the result depends on row p of the
  three blocks only; row p of block t is row 5000 t + p of each array, and the ten blocks tile the output, so the output
  array holds, at every node, the combination of that node's own three rows.
-/
import proofs.«102055_j4252017623285_1_alg».proof.Proof.Gen.KernelIdeal.Frame
import proofs.«102055_j4252017623285_1_alg».proof.Proof.Spec
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.SL.Sem Cert.Spec
open Idealize.ShloMosaic.Pipeline (Dat)
open Idealize.ShloMosaic.ValueIdx

variable (V : (c : Dev nD) → (b : Ref sig .tc) → Buf (Elt Ideal) ((c : Thread nD τ).loc b))

/-- The offsets (0, 0) are the zero offsets. -/
theorem combine128_zero_offsets : (![0, 0] : Fin 2 → Nat) = fun _ => 0 := funext fun a => by fin_cases a <;> rfl

/-! ## One block: entry (p, j) of the clipped joined differences -/

/-- Entry (p, j) of what the body computes from blocks `s`, `t`, `r`: the casts to the same shape change nothing; a
    column below 128 falls in the first joined piece, `s − r`, and a column from 128 on in the second, `(t − s) − r`,
    at that column less 128; the maximum with the zero word clips it. -/
theorem combine128_at (s t r : Vec Ideal S5000x128 .f32) (p : Fin 5000) (j : Fin 256) :
    k2_pay1 s t r (ix2 p j)
      = combineRow128 (fun k => s (ix2 p k)) (fun k => t (ix2 p k)) (fun k => r (ix2 p k)) j := by
  unfold k2_pay1 combineRow128
  rw [maximumf_apply, broadcast_apply]
  refine congrArg (fun z => max z zeroW) ?_
  simp only [shapeCast_self]
  by_cases h : j.val < 128
  · rw [dif_pos h]
    exact concatenate_pair_apply_left (t := S5000x256) (s₁ := S5000x128) (s₂ := S5000x128) (1 : Fin 2) _ _
      concatenates_S5000x128_S5000x128_S5000x256_d1 (ix2 p j) rfl (ix2 p (⟨j.val, h⟩ : Fin 128)) (fun b => by
        match b with
        | ⟨0, _⟩ => rfl
        | ⟨1, _⟩ => rfl)
  · rw [dif_neg h]
    exact concatenate_pair_apply_right (t := S5000x256) (s₁ := S5000x128) (s₂ := S5000x128) (1 : Fin 2) _ _
      concatenates_S5000x128_S5000x128_S5000x256_d1 (ix2 p j) rfl rfl (ix2 p (⟨j.val - 128, by omega⟩ : Fin 128))
      (fun b hb => by
        match b with
        | ⟨0, _⟩ => rfl
        | ⟨1, _⟩ => exact absurd rfl hb)
      (by show (j.val - 128) + 128 = j.val; omega)

/-! ## Where the blocks sit -/

/-- At grid point `t` each of the three input blocks and the output block is block `t` along the rows and block 0
    along the columns. -/
theorem combine128_index_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of the first input's block at point `t` is row `5000 t + p` of its array. -/
theorem combine128_once_block_at (c : Dev nD) (t : Fin cfg2.N) (p : Fin 5000) (k : Fin 128) (r : Fin 50000)
    (hr : r.val = t.val * 5000 + p.val) :
    (iblk2 V c 0 t : Vec Ideal S5000x128 .f32) (ix2 p k) = (V c main_v40 : S50000x128.Idx → EReal) (ix2 r k) := by
  obtain ⟨e0, e1, -⟩ := combine128_index_maps t
  unfold iblk2
  rw [View.read_apply]
  show V c main_v40 _ = V c main_v40 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The same for the second input. -/
theorem combine128_twice_block_at (c : Dev nD) (t : Fin cfg2.N) (p : Fin 5000) (k : Fin 128) (r : Fin 50000)
    (hr : r.val = t.val * 5000 + p.val) :
    (iblk2 V c 1 t : Vec Ideal S5000x128 .f32) (ix2 p k) = (V c main_v53 : S50000x128.Idx → EReal) (ix2 r k) := by
  obtain ⟨-, -, e2, e3, -⟩ := combine128_index_maps t
  unfold iblk2
  rw [View.read_apply]
  show V c main_v53 _ = V c main_v53 _
  congr 1
  funext a
  apply Fin.ext
  match a with
  | ⟨0, _⟩ => show win2_1.index t (0 : Fin 2) * 5000 + 1 * p.val = r.val; rw [e2, hr]; omega
  | ⟨1, _⟩ => show win2_1.index t (1 : Fin 2) * 128 + 1 * k.val = k.val; rw [e3]; omega

/-- The same for the third input. -/
theorem combine128_own_block_at (c : Dev nD) (t : Fin cfg2.N) (p : Fin 5000) (k : Fin 128) (r : Fin 50000)
    (hr : r.val = t.val * 5000 + p.val) :
    (iblk2 V c 2 t : Vec Ideal S5000x128 .f32) (ix2 p k) = (V c main_v27 : S50000x128.Idx → EReal) (ix2 r k) := by
  obtain ⟨-, -, -, -, e4, e5, -⟩ := combine128_index_maps t
  unfold iblk2
  rw [View.read_apply]
  show V c main_v27 _ = V c main_v27 _
  congr 1
  funext a
  apply Fin.ext
  match a with
  | ⟨0, _⟩ => show win2_2.index t (0 : Fin 2) * 5000 + 1 * p.val = r.val; rw [e4, hr]; omega
  | ⟨1, _⟩ => show win2_2.index t (1 : Fin 2) * 128 + 1 * k.val = k.val; rw [e5]; omega

/-! ## From the blocks to the array -/

/-- What point `t` writes back is block `t` of the combination of the three whole arrays: entry (p, j) of the block
    is the combination of their rows `5000 t + p` at column `j`. -/
theorem combine128_flushed (c : Dev nD) (t : Fin cfg2.N) :
    (dat2 (F := Ideal) V c).flushed 3 t
      = ((cfg2.win 3).blk t).view.read (Elt Ideal) (combineArr128 (V c main_v40) (V c main_v53) (V c main_v27)) := by
  show (cfg2.win 3).cut (grid2.coords t) ((dat2 V c).after 3 t) = _
  rw [after2_3]
  unfold out2_3
  rw [View.canon_unit_zero combine128_zero_offsets]
  simp only [View.ld_unit_zero (S := S5000x128) combine128_zero_offsets]
  obtain ⟨-, -, -, -, -, -, e6, e7⟩ := combine128_index_maps t
  funext y
  obtain ⟨p, j, rfl⟩ : ∃ (p : Fin 5000) (j : Fin 256), y = ix2 p j := ⟨y 0, y 1, eq_ix2 y⟩
  have ht : t.val < 10 := t.isLt
  have hp : p.val < 5000 := p.isLt
  show k2_pay1 (iblk2 V c 0 t) (iblk2 V c 1 t) (iblk2 V c 2 t) (ix2 p j)
    = combineArr128 (V c main_v40) (V c main_v53) (V c main_v27) (((cfg2.win 3).blk t).view.emb (ix2 p j))
  refine (combine128_at _ _ _ p j).trans ?_
  have hi : ((cfg2.win 3).blk t).view.emb (ix2 p j) = (ix2 (⟨t.val * 5000 + p.val, by omega⟩ : Fin 50000) j : S50000x256.Idx) := by
    funext a
    apply Fin.ext
    match a with
    | ⟨0, _⟩ => show win2_3.index t (0 : Fin 2) * 5000 + 1 * p.val = t.val * 5000 + p.val; rw [e6]; omega
    | ⟨1, _⟩ => show win2_3.index t (1 : Fin 2) * 256 + 1 * j.val = j.val; rw [e7]; omega
  rw [hi]
  show _ = combineRow128 (row (V c main_v40) (⟨t.val * 5000 + p.val, by omega⟩ : Fin 50000))
    (row (V c main_v53) (⟨t.val * 5000 + p.val, by omega⟩ : Fin 50000))
    (row (V c main_v27) (⟨t.val * 5000 + p.val, by omega⟩ : Fin 50000)) j
  have hs : (fun k => (iblk2 V c 0 t : Vec Ideal S5000x128 .f32) (ix2 p k))
      = row (V c main_v40) (⟨t.val * 5000 + p.val, by omega⟩ : Fin 50000) :=
    funext fun k => combine128_once_block_at V c t p k _ rfl
  have htw : (fun k => (iblk2 V c 1 t : Vec Ideal S5000x128 .f32) (ix2 p k))
      = row (V c main_v53) (⟨t.val * 5000 + p.val, by omega⟩ : Fin 50000) :=
    funext fun k => combine128_twice_block_at V c t p k _ rfl
  have hr : (fun k => (iblk2 V c 2 t : Vec Ideal S5000x128 .f32) (ix2 p k))
      = row (V c main_v27) (⟨t.val * 5000 + p.val, by omega⟩ : Fin 50000) :=
    funext fun k => combine128_own_block_at V c t p k _ rfl
  rw [hs, htw, hr]

/-- An index of the output array lies in point `t`'s block iff each coordinate lies in the block's range on its axis. -/
theorem combine128_mem_block (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v54).slice (win2_3.rect t)).set ↔ _
  rw [View.set_slice_whole, Rect.mem_set_unit]
  exact Iff.rfl

/-- The ten blocks cover the output: row `r` lies in the block of point `r / 5000`. -/
theorem combine128_cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 10 := N_2
  refine ⟨⟨(i 0).val / 5000, by rw [hN]; omega⟩, flush2_3 _, ?_⟩
  rw [combine128_mem_block]
  obtain ⟨-, -, -, -, -, -, e6, e7⟩ := combine128_index_maps ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 256 ≤ (i 1).val ∧ (i 1).val < win2_3.index _ (1 : Fin 2) * 256 + 256
    rw [e7]; omega

/-- After the stage the output array is the combination of the three input arrays, node by node. -/
theorem combine128_region (c : Dev nD) :
    (dat2 (F := Ideal) V c).arrAt 3 cfg2.N = combineArr128 (V c main_v40) (V c main_v53) (V c main_v27) :=
  (dat2 V c).arrAt_eq_of_cover 3 _ (fun t _ => combine128_flushed V c t) combine128_cover

end Cert.KernelIdeal.Dense

end
-- ==== Proof.LibSums.lean ====
/-
  Lane sums at the ideal values, read at an index given by its coordinates: a sum along the last axis of a rank-2 or
  rank-3 vector is, at each remaining index, the sum of the source over that axis's coordinate.
-/
import Idealize.ShloMosaic.PureOps.Ideal.Laws
import Idealize.ShloMosaic.Lib.ValueIdx

namespace Cert.Lib

open Idealize.ShloMosaic Idealize.ShloMosaic.ValueIdx

/-- A sum along the columns of an `[n, m]` vector reads, at row `r`, the sum of the row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec FTy.f32.bits) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- A sum along the last axis of an `[a, b, c]` vector reads, at `(i, j)`, the sum over the last coordinate. -/
theorem laneSum3_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec FTy.f32.bits) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => ?_
  exact congrArg src (funext fun a => Fin.ext (by match a with | ⟨0, _⟩ => rfl | ⟨1, _⟩ => rfl | ⟨2, _⟩ => rfl))

end Cert.Lib
-- ==== Proof.LibLayout.lean ====
/-
  Layout operations of small ranks read at an index given by its coordinates: the unit axis a `keepdims` sum or a
  `[:, :, None]` adds at the END or in the MIDDLE of a shape, and the broadcasts along such a unit axis.  Each is the
  general "same row-major position" (for a cast) or "zero on the operand's unit axes" (for a broadcast) fact with
  both indices written out.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.KClassifyBody.lean ====
/-
  The classifier's block computation read at one entry.

  On a block of 5000 node rows the kernel forms the logits L = (X0 · W0 + X1 · W1) + X2 · W2 from the three feature
  blocks and the three weight blocks, takes each row's largest entry (from minus infinity, and once more against minus
  infinity), subtracts it, exponentiates, and divides by the row's sum of exponentials.  Read at row p and class j this
  is the softmax of row p of L at j, and row p of L is the specification's logits of the three feature rows p: every
  step is either entrywise or acts along one row, so nothing of another row enters.
-/
import proofs.«102055_j4252017623285_1_alg».proof.Proof.Gen.KernelIdeal.Skeleton
import proofs.«102055_j4252017623285_1_alg».proof.Proof.Spec
import proofs.«102055_j4252017623285_1_alg».proof.Proof.LibDot
import proofs.«102055_j4252017623285_1_alg».proof.Proof.LibSums
import proofs.«102055_j4252017623285_1_alg».proof.Proof.LibLayout
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.ValueIdx Cert.Spec

/-! ## The block computation in two stages: the logits, then the softmax of a block of logits -/

/-- The block of logits: the three products of a feature block with its weight block, each accumulated from zero,
    summed as (first + second) + third. -/
def classifyLogitsV (x0 : Vec Ideal S5000x64 .f32) (x1 : Vec Ideal S5000x128 .f32) (x2 : Vec Ideal S5000x256 .f32)
    (w0 : Vec Ideal S64x64 .f32) (w1 : Vec Ideal S128x64 .f32) (w2 : Vec Ideal S256x64 .f32) : FVec Ideal S5000x64 .f32 :=
  addf
    (addf
      (matmul dot_S5000x64_S64x64_S5000x64_1_0_0_1_n_n none
        (truncf .bf16 (shapeCast S5000x64 x0 shapeCasts_S5000x64_S5000x64) bitsLt_bf16_f32)
        (truncf .bf16 (shapeCast S64x64 w0 shapeCasts_S64x64_S64x64) bitsLt_bf16_f32)
        (constant (F := Ideal) S5000x64 .f32 0x00000000#32))
      (matmul dot_S5000x128_S128x64_S5000x64_1_0_0_1_n_n none
        (truncf .bf16 (shapeCast S5000x128 x1 shapeCasts_S5000x128_S5000x128) bitsLt_bf16_f32)
        (truncf .bf16 (shapeCast S128x64 w1 shapeCasts_S128x64_S128x64) bitsLt_bf16_f32)
        (constant (F := Ideal) S5000x64 .f32 0x00000000#32)))
    (matmul dot_S5000x256_S256x64_S5000x64_1_0_0_1_n_n none
      (truncf .bf16 (shapeCast S5000x256 x2 shapeCasts_S5000x256_S5000x256) bitsLt_bf16_f32)
      (truncf .bf16 (shapeCast S256x64 w2 shapeCasts_S256x64_S256x64) bitsLt_bf16_f32)
      (constant (F := Ideal) S5000x64 .f32 0x00000000#32))

/-- Each row's top entry, spread back over the row: the largest entry from minus infinity, compared once more with
    minus infinity, as a column, repeated along the 64 classes. -/
def classifyTopV (l : FVec Ideal S5000x64 .f32) : FVec Ideal S5000x64 .f32 :=
  broadcastTo S5000x64
    (shapeCast S5000x1
      (maximumf (broadcast S5000 (Scalar.ofBits (F := Ideal) .f32 0xFF800000#32))
        (multiReduction (F := Ideal) .maximumf [1] S5000 l 0xFF800000#32 reduces_S5000x64_S5000 (.inl rfl) rfl))
      shapeCasts_S5000_S5000x1)
    broadcasts_S5000x1_S5000x64

/-- The exponentials of the logits shifted by their row's top entry. -/
def classifyExpV (l : FVec Ideal S5000x64 .f32) : FVec Ideal S5000x64 .f32 :=
  exp (subf l (classifyTopV l))

/-- The softmax of every row of a block of logits. -/
def classifySoftmaxV (l : FVec Ideal S5000x64 .f32) : FVec Ideal S5000x64 .f32 :=
  divf (classifyExpV l)
    (broadcastTo S5000x64
      (shapeCast S5000x1
        (multiReduction (F := Ideal) .add [1] S5000 (classifyExpV l) 0x00000000#32 reduces_S5000x64_S5000 (.inl rfl) rfl)
        shapeCasts_S5000_S5000x1)
      broadcasts_S5000x1_S5000x64)

/-- The kernel's stored value is the softmax stage applied to the logits stage. -/
theorem k3_pay1_eq_stages (x0 : Vec Ideal S5000x64 .f32) (x1 : Vec Ideal S5000x128 .f32) (x2 : Vec Ideal S5000x256 .f32)
    (w0 : Vec Ideal S64x64 .f32) (w1 : Vec Ideal S128x64 .f32) (w2 : Vec Ideal S256x64 .f32) :
    k3_pay1 (F := Ideal) x0 x1 x2 w0 w1 w2 = classifySoftmaxV (classifyLogitsV x0 x1 x2 w0 w1 w2) := rfl

/-! ## The logits at an entry -/

/-- The block of logits at row p and class j: the specification's logits of the three feature rows p, at j.  Each
    product into a zero accumulator is, at (p, j), the sum over the contracted coordinate; the casts to the same shape
    and the narrowing of the format change no value. -/
theorem classifyLogitsV_apply (x0 : Vec Ideal S5000x64 .f32) (x1 : Vec Ideal S5000x128 .f32) (x2 : Vec Ideal S5000x256 .f32)
    (w0 : Vec Ideal S64x64 .f32) (w1 : Vec Ideal S128x64 .f32) (w2 : Vec Ideal S256x64 .f32) (p : Fin 5000) (j : Fin 64) :
    classifyLogitsV x0 x1 x2 w0 w1 w2 (ix2 p j)
      = logitsRow (fun k => x0 (ix2 p k)) (fun k => x1 (ix2 p k)) (fun k => x2 (ix2 p k)) w0 w1 w2 j := by
  unfold classifyLogitsV logitsRow
  rw [shapeCast_self, shapeCast_self, shapeCast_self, shapeCast_self, shapeCast_self, shapeCast_self, addf_apply, addf_apply]
  refine congrArg₂ (· + ·) (congrArg₂ (· + ·) ?_ ?_) ?_
  · exact LibDot.matmulZero_apply dot_S5000x64_S64x64_S5000x64_1_0_0_1_n_n_wf _ _ p j
  · exact LibDot.matmulZero_apply dot_S5000x128_S128x64_S5000x64_1_0_0_1_n_n_wf _ _ p j
  · exact LibDot.matmulZero_apply dot_S5000x256_S256x64_S5000x64_1_0_0_1_n_n_wf _ _ p j

/-! ## The softmax of a block of logits at an entry -/

/-- The largest entry of row p from minus infinity: the fold of max over the row's 64 entries. -/
theorem rowMax_apply (l : FVec Ideal S5000x64 .f32) (h : S5000x64.Reduces [1] S5000) (hφ : FKind.Formats .f32)
    (hacc : (0xFF800000#32 : BitVec FTy.f32.bits) = FKind.maximumf.neutral .f32 hφ) (p : Fin 5000) :
    multiReduction (F := Ideal) .maximumf [1] S5000 l 0xFF800000#32 h hφ hacc (ix1 p)
      = (Finset.univ : Finset (Fin 64)).fold max negInfW (fun k => l (ix2 p k)) := by
  refine (Ideal.multiReduction_maximumf_single l 0xFF800000#32 h hφ hacc (ix1 p)).trans ?_
  show (Finset.univ : Finset (Fin 64)).fold max negInfW (l ∘ h.lift (ix1 p)) = _
  refine Finset.fold_congr fun k _ => ?_
  exact congrArg l (funext fun a => Fin.ext (by match a with | ⟨0, _⟩ => rfl | ⟨1, _⟩ => rfl))

/-- The spread top entry at (p, k) is the specification's top of row p, whatever k. -/
theorem classifyTopV_apply (l : FVec Ideal S5000x64 .f32) (p : Fin 5000) (k : Fin 64) :
    classifyTopV l (ix2 p k) = rowTop (fun k => l (ix2 p k)) := by
  unfold classifyTopV rowTop
  refine (Cert.Lib.broadcastTo_a1_ab_apply _ _ p k).trans ?_
  refine (Cert.Lib.shapeCast_a_a1_apply _ _ p (0 : Fin 1)).trans ?_
  rw [maximumf_apply, broadcast_apply]
  exact congrArg (max negInfW) (rowMax_apply l _ _ _ p)

/-- The shifted exponential at (p, k). -/
theorem classifyExpV_apply (l : FVec Ideal S5000x64 .f32) (p : Fin 5000) (k : Fin 64) :
    classifyExpV l (ix2 p k) = Ideal.exp (l (ix2 p k) - rowTop (fun k => l (ix2 p k))) := by
  unfold classifyExpV
  show Ideal.exp (subf l (classifyTopV l) (ix2 p k)) = _
  rw [subf_apply, classifyTopV_apply]

/-- The softmax stage at (p, j): the specification's softmax of row p of the logits, at j. -/
theorem classifySoftmaxV_apply (l : FVec Ideal S5000x64 .f32) (p : Fin 5000) (j : Fin 64) :
    classifySoftmaxV l (ix2 p j) = softmaxRow (fun k => l (ix2 p k)) j := by
  unfold classifySoftmaxV softmaxRow
  rw [divf_apply, classifyExpV_apply]
  refine congrArg (Ideal.div _) ?_
  refine (Cert.Lib.broadcastTo_a1_ab_apply _ _ p j).trans ?_
  refine (Cert.Lib.shapeCast_a_a1_apply _ _ p (0 : Fin 1)).trans ?_
  refine (Cert.Lib.rowSum_apply _ _ _ _ p).trans ?_
  exact Finset.sum_congr rfl fun k _ => classifyExpV_apply l p k

/-! ## The stored value at an entry -/

/-- What the kernel stores at row p and class j of its block: the softmax of the logits of the three feature rows p. -/
theorem k3_pay1_apply (x0 : Vec Ideal S5000x64 .f32) (x1 : Vec Ideal S5000x128 .f32) (x2 : Vec Ideal S5000x256 .f32)
    (w0 : Vec Ideal S64x64 .f32) (w1 : Vec Ideal S128x64 .f32) (w2 : Vec Ideal S256x64 .f32) (p : Fin 5000) (j : Fin 64) :
    k3_pay1 (F := Ideal) x0 x1 x2 w0 w1 w2 (ix2 p j)
      = softmaxRow (logitsRow (fun k => x0 (ix2 p k)) (fun k => x1 (ix2 p k)) (fun k => x2 (ix2 p k)) w0 w1 w2) j := by
  rw [k3_pay1_eq_stages]
  refine (classifySoftmaxV_apply _ p j).trans ?_
  exact congrArg (fun r => softmaxRow r j) (funext fun k => classifyLogitsV_apply x0 x1 x2 w0 w1 w2 p k)

end Cert.KernelIdeal.Dense

end
-- ==== Proof.KClassify.lean ====
/-
  The classifier region's output array as one function of the arrays the region finds.

  The grid has ten points; point t works on node rows 5000·t … 5000·t + 4999: its three feature blocks are those rows
  of the three feature arrays, its three weight blocks are the whole weight arrays, and what it writes back is those
  rows of the output.  Since each stored row is the softmax of the logits of the same row of the three feature blocks,
  point t writes rows 5000·t … of the specification's whole-array function; the ten row blocks fill the 50000 rows, so
  the array ends holding that function.
-/
import proofs.«102055_j4252017623285_1_alg».proof.Proof.Gen.KernelIdeal.Frame
import proofs.«102055_j4252017623285_1_alg».proof.Proof.Spec
import proofs.«102055_j4252017623285_1_alg».proof.Proof.KClassifyBody
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Idealize.ShloMosaic Idealize.ShloMosaic.TcCoe Idealize.SL.Sem Cert.Spec
open Idealize.ShloMosaic.ValueIdx
open Idealize.ShloMosaic.Pipeline (Dat)

/-! ## One stored row against the whole-array function -/

/-- If row p of each feature block is row r of its array and each weight block is its array, the stored value at
    (p, q) is the whole-array function at (r, q). -/
theorem classify_at (x0 : Vec Ideal S5000x64 .f32) (x1 : Vec Ideal S5000x128 .f32) (x2 : Vec Ideal S5000x256 .f32)
    (w0 : Vec Ideal S64x64 .f32) (w1 : Vec Ideal S128x64 .f32) (w2 : Vec Ideal S256x64 .f32)
    (R0 : Arr 50000 64) (R1 : Arr 50000 128) (R2 : Arr 50000 256) (W0 : Arr 64 64) (W1 : Arr 128 64) (W2 : Arr 256 64)
    (p : Fin 5000) (r : Fin 50000)
    (h0 : ∀ k : Fin 64, x0 (ix2 p k) = R0 (ix2 r k)) (h1 : ∀ k : Fin 128, x1 (ix2 p k) = R1 (ix2 r k))
    (h2 : ∀ k : Fin 256, x2 (ix2 p k) = R2 (ix2 r k)) (g0 : w0 = W0) (g1 : w1 = W1) (g2 : w2 = W2) (q : Fin 64) :
    k3_pay1 (F := Ideal) x0 x1 x2 w0 w1 w2 (ix2 p q) = classifyArr R0 R1 R2 W0 W1 W2 (ix2 r q) := by
  subst g0 g1 g2
  refine (k3_pay1_apply x0 x1 x2 w0 w1 w2 p q).trans ?_
  show _ = softmaxRow (logitsRow (row R0 r) (row R1 r) (row R2 r) w0 w1 w2) q
  rw [show (fun k => x0 (ix2 p k)) = row R0 r from funext h0, show (fun k => x1 (ix2 p k)) = row R1 r from funext h1,
    show (fun k => x2 (ix2 p k)) = row R2 r from funext h2]

/-! ## Where the blocks sit -/

theorem zero_offsets : (![0, 0] : Fin 2 → Nat) = fun _ => 0 := funext fun a => by fin_cases a <;> rfl

/-- The block indices over the grid: the three feature windows and the output move down the rows with the point, one
    block per point; the three weight windows stay at the one block they have. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- Row p of the first feature block at point t is row 5000·t + p of the first feature array. -/
theorem features0_block (c : Dev nD) (t : Fin cfg3.N) (p : Fin 5000) (k : Fin 64) (r : Fin 50000)
    (hr : r.val = t.val * 5000 + p.val) :
    (iblk3 V c 0 t : Vec Ideal S5000x64 .f32) (ix2 p k) = (V c main_v0 : Arr 50000 64) (ix2 r k) := by
  obtain ⟨e0, e1, -⟩ := block_indices t
  show (V c main_v0 : Arr 50000 64) (((cfg3.win 0).blk t).view.emb (ix2 p k)) = _
  refine congrArg (V c main_v0 : Arr 50000 64) (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Row p of the second feature block at point t is row 5000·t + p of the second feature array. -/
theorem features1_block (c : Dev nD) (t : Fin cfg3.N) (p : Fin 5000) (k : Fin 128) (r : Fin 50000)
    (hr : r.val = t.val * 5000 + p.val) :
    (iblk3 V c 1 t : Vec Ideal S5000x128 .f32) (ix2 p k) = (V c main_v27 : Arr 50000 128) (ix2 r k) := by
  obtain ⟨-, -, e0, e1, -⟩ := block_indices t
  show (V c main_v27 : Arr 50000 128) (((cfg3.win 1).blk t).view.emb (ix2 p k)) = _
  refine congrArg (V c main_v27 : Arr 50000 128) (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- Row p of the third feature block at point t is row 5000·t + p of the third feature array. -/
theorem features2_block (c : Dev nD) (t : Fin cfg3.N) (p : Fin 5000) (k : Fin 256) (r : Fin 50000)
    (hr : r.val = t.val * 5000 + p.val) :
    (iblk3 V c 2 t : Vec Ideal S5000x256 .f32) (ix2 p k) = (V c main_v54 : Arr 50000 256) (ix2 r k) := by
  obtain ⟨-, -, -, -, e0, e1, -⟩ := block_indices t
  show (V c main_v54 : Arr 50000 256) (((cfg3.win 2).blk t).view.emb (ix2 p k)) = _
  refine congrArg (V c main_v54 : Arr 50000 256) (funext fun a => Fin.ext ?_)
  match a with
  | ⟨0, _⟩ => show win3_2.index t (0 : Fin 2) * 5000 + 1 * p.val = r.val; omega
  | ⟨1, _⟩ => show win3_2.index t (1 : Fin 2) * 256 + 1 * k.val = k.val; omega

/-- The first weight block is the first weight array, at every point. -/
theorem weights0_block (c : Dev nD) (t : Fin cfg3.N) :
    (iblk3 V c 3 t : Vec Ideal S64x64 .f32) = (V c main_v55 : Arr 64 64) := by
  obtain ⟨-, -, -, -, -, -, e0, e1, -⟩ := block_indices t
  funext y
  show (V c main_v55 : Arr 64 64) (((cfg3.win 3).blk t).view.emb y) = _
  refine congrArg (V c main_v55 : Arr 64 64) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The second weight block is the second weight array, at every point. -/
theorem weights1_block (c : Dev nD) (t : Fin cfg3.N) :
    (iblk3 V c 4 t : Vec Ideal S128x64 .f32) = (V c main_v56 : Arr 128 64) := by
  obtain ⟨-, -, -, -, -, -, -, -, e0, e1, -⟩ := block_indices t
  funext y
  show (V c main_v56 : Arr 128 64) (((cfg3.win 4).blk t).view.emb y) = _
  refine congrArg (V c main_v56 : Arr 128 64) (funext fun a => Fin.ext ?_)
  match a with
  | ⟨0, _⟩ => show win3_4.index t (0 : Fin 2) * 128 + 1 * (y 0).val = (y 0).val; omega
  | ⟨1, _⟩ => show win3_4.index t (1 : Fin 2) * 64 + 1 * (y 1).val = (y 1).val; omega

/-- The third weight block is the third weight array, at every point. -/
theorem weights2_block (c : Dev nD) (t : Fin cfg3.N) :
    (iblk3 V c 5 t : Vec Ideal S256x64 .f32) = (V c main_v57 : Arr 256 64) := by
  obtain ⟨-, -, -, -, -, -, -, -, -, -, e0, e1, -⟩ := block_indices t
  funext y
  show (V c main_v57 : Arr 256 64) (((cfg3.win 5).blk t).view.emb y) = _
  refine congrArg (V c main_v57 : Arr 256 64) (funext fun a => Fin.ext ?_)
  match a with
  | ⟨0, _⟩ => show win3_5.index t (0 : Fin 2) * 256 + 1 * (y 0).val = (y 0).val; omega
  | ⟨1, _⟩ => show win3_5.index t (1 : Fin 2) * 64 + 1 * (y 1).val = (y 1).val; omega

/-! ## What a point writes back -/

/-- A block whose row p is row 5000·t + p of a whole-array function is that function read through the output's block
    at point t. -/
theorem out_block_eq (t : Fin cfg3.N) (X : Vec Ideal S5000x64 .f32) (G : Arr 50000 64)
    (h : ∀ (p : Fin 5000) (q : Fin 64) (r : Fin 50000), r.val = t.val * 5000 + p.val → X (ix2 p q) = G (ix2 r q)) :
    (cfg3.win 6).cut (grid3.coords t) X = ((cfg3.win 6).blk t).view.read (Elt Ideal) G := by
  obtain ⟨-, -, -, -, -, -, -, -, -, -, -, -, e0, e1⟩ := block_indices t
  have ht : t.val < 10 := t.isLt
  funext y
  have hp : (y 0).val < 5000 := (y 0).isLt
  have hq : (y 1).val < 64 := (y 1).isLt
  show X ((cfg3.win 6).xinj (grid3.coords t) y) = G (((cfg3.win 6).blk t).view.emb y)
  have ex : (cfg3.win 6).xinj (grid3.coords t) y = ix2 (⟨(y 0).val, hp⟩ : Fin 5000) (⟨(y 1).val, hq⟩ : Fin 64) :=
    funext fun a => Fin.ext (by match a with | ⟨0, _⟩ => rfl | ⟨1, _⟩ => rfl)
  have eg : ((cfg3.win 6).blk t).view.emb y
      = ix2 (⟨t.val * 5000 + (y 0).val, by omega⟩ : Fin 50000) (⟨(y 1).val, hq⟩ : Fin 64) :=
    funext fun a => Fin.ext (by
      match a with
      | ⟨0, _⟩ => show win3_6.index t (0 : Fin 2) * 5000 + 1 * (y 0).val = t.val * 5000 + (y 0).val; omega
      | ⟨1, _⟩ => show win3_6.index t (1 : Fin 2) * 64 + 1 * (y 1).val = (y 1).val; omega)
  rw [ex, eg]
  exact h _ _ _ rfl

/-- Point t writes back rows 5000·t … 5000·t + 4999 of the whole-array function of the arrays the region finds. -/
theorem classify_flushed (c : Dev nD) (t : Fin cfg3.N) :
    (dat3 (F := Ideal) V c).flushed 6 t
      = ((cfg3.win 6).blk t).view.read (Elt Ideal)
          (classifyArr (V c main_v0) (V c main_v27) (V c main_v54) (V c main_v55) (V c main_v56) (V c main_v57)) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S5000x128) zero_offsets,
    View.ld_unit_zero (S := S5000x256) zero_offsets, View.ld_unit_zero (S := S64x64) zero_offsets,
    View.ld_unit_zero (S := S128x64) zero_offsets, View.ld_unit_zero (S := S256x64) zero_offsets]
  refine out_block_eq t _ _ fun p q r hr => ?_
  exact classify_at (iblk3 V c 0 t) (iblk3 V c 1 t) (iblk3 V c 2 t) (iblk3 V c 3 t) (iblk3 V c 4 t) (iblk3 V c 5 t)
    (V c main_v0) (V c main_v27) (V c main_v54) (V c main_v55) (V c main_v56) (V c main_v57) p r
    (fun k => features0_block V c t p k r hr) (fun k => features1_block V c t p k r hr)
    (fun k => features2_block V c t p k r hr) (weights0_block V c t) (weights1_block V c t) (weights2_block V c t) q

/-! ## The ten row blocks fill the array -/

/-- An index of the output array is in point t's block iff each coordinate is in the block's range on its axis. -/
theorem mem_out_block (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v58).slice (win3_6.rect t)).set ↔ _
  rw [View.set_slice_whole, Rect.mem_set_unit]
  exact Iff.rfl

/-- Row r of the output is written back by point r / 5000. -/
theorem out_blocks_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  have hlt : (i 0).val / 5000 < cfg3.N := by rw [hN]; omega
  obtain ⟨-, -, -, -, -, -, -, -, -, -, -, -, e0, e1⟩ := block_indices ⟨(i 0).val / 5000, hlt⟩
  refine ⟨⟨(i 0).val / 5000, hlt⟩, flush3_6 _, ?_⟩
  rw [mem_out_block]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_6.index ⟨(i 0).val / 5000, hlt⟩ (1 : Fin 2) * 64 ≤ (i 1).val
      ∧ (i 1).val < win3_6.index ⟨(i 0).val / 5000, hlt⟩ (1 : Fin 2) * 64 + 64
    rw [e1]
    omega

/-! ## The region's output array -/

/-- After the classifier region its output array holds, row by row, the softmax of the logits of the same row of the
    three feature arrays against the three weight arrays, all as the region finds them. -/
theorem classify_region (c : Dev nD) :
    (dat3 (F := Ideal) V c).arrAt 6 cfg3.N
      = classifyArr (V c main_v0) (V c main_v27) (V c main_v54) (V c main_v55) (V c main_v56) (V c main_v57) :=
  (dat3 (F := Ideal) V c).arrAt_eq_of_cover 6 _ (fun t _ => classify_flushed V c t) out_blocks_cover

end Cert.KernelIdeal.Dense

end
-- ==== Proof.KChain.lean ====
/-
  The idealized kernel's buffers at each boundary between its segments, followed from the launch to the return. The
  program is: region 0 (the embedding, into `main_v0`); two propagations along the edges (into `main_v13`, `main_v26`);
  region 1 (the first hop's combination, into `main_v27`); two propagations at width 128 (into `main_v40`, `main_v53`);
  region 2 (the second hop's combination, into `main_v54`); the weight matrix cut into three blocks of rows (`main_v55`,
  `main_v56`, `main_v57`); region 3 (the classifier, into the result `main_v58`). At each boundary every buffer a later
  segment reads is named as a function of the launch contents; a region's output array is what its write-backs leave (the
  specification's whole-array function of the arrays it found), its input arrays and every other buffer are untouched.
-/
import proofs.«102055_j4252017623285_1_alg».proof.Proof.Gen.KernelIdeal.Frame
import proofs.«102055_j4252017623285_1_alg».proof.Proof.KHost
import proofs.«102055_j4252017623285_1_alg».proof.Proof.Spec
import proofs.«102055_j4252017623285_1_alg».proof.Proof.KValue
import proofs.«102055_j4252017623285_1_alg».proof.Proof.KEmbed
import proofs.«102055_j4252017623285_1_alg».proof.Proof.KCombine64
import proofs.«102055_j4252017623285_1_alg».proof.Proof.KCombine128
import proofs.«102055_j4252017623285_1_alg».proof.Proof.KClassify

set_option maxRecDepth 16384

noncomputable section

namespace Cert.KernelIdeal.Chain

open Cert.KernelIdeal Cert.KernelIdeal.Gen Cert.KernelIdeal.Terms Cert.KernelIdeal.Host Cert.KernelIdeal.Dense Cert.Spec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The named values -/

/-- The embedding of the launch's features. -/
abbrev r0 : Arr 50000 64 := embedArr (m ((c : Thread nD τ).loc main_arg0)) (m ((c : Thread nD τ).loc main_arg4))
/-- One and two propagations of the embedding, and the first hop's features. -/
abbrev s1 : Arr 50000 64 := spread64 (m ((c : Thread nD τ).loc main_arg1)) (m ((c : Thread nD τ).loc main_arg2)) (m ((c : Thread nD τ).loc main_arg3)) (r0 m c)
abbrev t1 : Arr 50000 64 := spread64 (m ((c : Thread nD τ).loc main_arg1)) (m ((c : Thread nD τ).loc main_arg2)) (m ((c : Thread nD τ).loc main_arg3)) (s1 m c)
abbrev r1 : Arr 50000 128 := combineArr64 (s1 m c) (t1 m c) (r0 m c)
/-- One and two propagations of the first hop's features, and the second hop's features. -/
abbrev s2 : Arr 50000 128 := spread128 (m ((c : Thread nD τ).loc main_arg1)) (m ((c : Thread nD τ).loc main_arg2)) (m ((c : Thread nD τ).loc main_arg3)) (r1 m c)
abbrev t2 : Arr 50000 128 := spread128 (m ((c : Thread nD τ).loc main_arg1)) (m ((c : Thread nD τ).loc main_arg2)) (m ((c : Thread nD τ).loc main_arg3)) (s2 m c)
abbrev r2 : Arr 50000 256 := combineArr128 (s2 m c) (t2 m c) (r1 m c)
/-- The kernel's result as a function of the launch contents. -/
abbrev kernelValue : Arr 50000 64 :=
  classifyArr (r0 m c) (r1 m c) (r2 m c) (weights0 (m ((c : Thread nD τ).loc main_arg5))) (weights1 (m ((c : Thread nD τ).loc main_arg5))) (weights2 (m ((c : Thread nD τ).loc main_arg5)))

/-! ## After region 0 -/

theorem W1_main_v0 : W1 m ρ c (Proc.devRef .tc main_v0) = r0 m c :=
  (W1_arr m ρ c 2).trans (embed_region (V0 m ρ) c)
theorem W1_main_arg1 : W1 m ρ c (Proc.devRef .tc main_arg1) = m ((c : Thread nD τ).loc main_arg1) := W1_of_ne m ρ c main_arg1 (by decide)
theorem W1_main_arg2 : W1 m ρ c (Proc.devRef .tc main_arg2) = m ((c : Thread nD τ).loc main_arg2) := W1_of_ne m ρ c main_arg2 (by decide)
theorem W1_main_arg3 : W1 m ρ c (Proc.devRef .tc main_arg3) = m ((c : Thread nD τ).loc main_arg3) := W1_of_ne m ρ c main_arg3 (by decide)
theorem W1_main_arg5 : W1 m ρ c (Proc.devRef .tc main_arg5) = m ((c : Thread nD τ).loc main_arg5) := W1_of_ne m ρ c main_arg5 (by decide)

/-! ## After the first stretch: the two propagations at width 64 -/

theorem W2_main_v13 : W2 m ρ c (Proc.devRef .tc main_v13) = s1 m c := by
  show after hostOps1 (W1 m ρ c) (Proc.devRef .tc main_v13) = _
  rw [hostOps1_main_v13, W1_main_arg1, W1_main_arg2, W1_main_arg3, W1_main_v0]
theorem W2_main_v26 : W2 m ρ c (Proc.devRef .tc main_v26) = t1 m c := by
  show after hostOps1 (W1 m ρ c) (Proc.devRef .tc main_v26) = _
  rw [hostOps1_main_v26, W1_main_arg1, W1_main_arg2, W1_main_arg3, W1_main_v0]
theorem W2_main_v0 : W2 m ρ c (Proc.devRef .tc main_v0) = r0 m c := by
  show after hostOps1 (W1 m ρ c) (Proc.devRef .tc main_v0) = _
  rw [hostOps1_keeps_main_v0, W1_main_v0]
theorem W2_main_arg1 : W2 m ρ c (Proc.devRef .tc main_arg1) = m ((c : Thread nD τ).loc main_arg1) := by
  show after hostOps1 (W1 m ρ c) (Proc.devRef .tc main_arg1) = _
  rw [hostOps1_keeps_main_arg1, W1_main_arg1]
theorem W2_main_arg2 : W2 m ρ c (Proc.devRef .tc main_arg2) = m ((c : Thread nD τ).loc main_arg2) := by
  show after hostOps1 (W1 m ρ c) (Proc.devRef .tc main_arg2) = _
  rw [hostOps1_keeps_main_arg2, W1_main_arg2]
theorem W2_main_arg3 : W2 m ρ c (Proc.devRef .tc main_arg3) = m ((c : Thread nD τ).loc main_arg3) := by
  show after hostOps1 (W1 m ρ c) (Proc.devRef .tc main_arg3) = _
  rw [hostOps1_keeps_main_arg3, W1_main_arg3]
theorem W2_main_arg5 : W2 m ρ c (Proc.devRef .tc main_arg5) = m ((c : Thread nD τ).loc main_arg5) := by
  show after hostOps1 (W1 m ρ c) (Proc.devRef .tc main_arg5) = _
  rw [hostOps1_keeps_main_arg5, W1_main_arg5]

/-! ## After region 1 -/

theorem W3_main_v27 : W3 m ρ c (Proc.devRef .tc main_v27) = r1 m c := by
  refine (W3_arr m ρ c 3).trans ((combine64_region (V2 m ρ) c).trans ?_)
  show combineArr64 (W2 m ρ c (Proc.devRef .tc main_v13)) (W2 m ρ c (Proc.devRef .tc main_v26)) (W2 m ρ c (Proc.devRef .tc main_v0)) = _
  rw [W2_main_v13, W2_main_v26, W2_main_v0]
theorem W3_main_v0 : W3 m ρ c (Proc.devRef .tc main_v0) = r0 m c :=
  ((W3_arr m ρ c 2).trans (((dat1 (V2 m ρ) c).arrAt_in 2 rfl _).trans (A_eq1 (V2 m ρ) c 2))).trans (W2_main_v0 m ρ c)
theorem W3_main_arg1 : W3 m ρ c (Proc.devRef .tc main_arg1) = m ((c : Thread nD τ).loc main_arg1) := (W3_of_ne m ρ c main_arg1 (by decide)).trans (W2_main_arg1 m ρ c)
theorem W3_main_arg2 : W3 m ρ c (Proc.devRef .tc main_arg2) = m ((c : Thread nD τ).loc main_arg2) := (W3_of_ne m ρ c main_arg2 (by decide)).trans (W2_main_arg2 m ρ c)
theorem W3_main_arg3 : W3 m ρ c (Proc.devRef .tc main_arg3) = m ((c : Thread nD τ).loc main_arg3) := (W3_of_ne m ρ c main_arg3 (by decide)).trans (W2_main_arg3 m ρ c)
theorem W3_main_arg5 : W3 m ρ c (Proc.devRef .tc main_arg5) = m ((c : Thread nD τ).loc main_arg5) := (W3_of_ne m ρ c main_arg5 (by decide)).trans (W2_main_arg5 m ρ c)

/-! ## After the second stretch: the two propagations at width 128 -/

theorem W4_main_v40 : W4 m ρ c (Proc.devRef .tc main_v40) = s2 m c := by
  show after hostOps2 (W3 m ρ c) (Proc.devRef .tc main_v40) = _
  rw [hostOps2_main_v40, W3_main_arg1, W3_main_arg2, W3_main_arg3, W3_main_v27]
theorem W4_main_v53 : W4 m ρ c (Proc.devRef .tc main_v53) = t2 m c := by
  show after hostOps2 (W3 m ρ c) (Proc.devRef .tc main_v53) = _
  rw [hostOps2_main_v53, W3_main_arg1, W3_main_arg2, W3_main_arg3, W3_main_v27]
theorem W4_main_v27 : W4 m ρ c (Proc.devRef .tc main_v27) = r1 m c := by
  show after hostOps2 (W3 m ρ c) (Proc.devRef .tc main_v27) = _
  rw [hostOps2_keeps_main_v27, W3_main_v27]
theorem W4_main_v0 : W4 m ρ c (Proc.devRef .tc main_v0) = r0 m c := by
  show after hostOps2 (W3 m ρ c) (Proc.devRef .tc main_v0) = _
  rw [hostOps2_keeps_main_v0, W3_main_v0]
theorem W4_main_arg5 : W4 m ρ c (Proc.devRef .tc main_arg5) = m ((c : Thread nD τ).loc main_arg5) := by
  show after hostOps2 (W3 m ρ c) (Proc.devRef .tc main_arg5) = _
  rw [hostOps2_keeps_main_arg5, W3_main_arg5]

/-! ## After region 2 -/

theorem W5_main_v54 : W5 m ρ c (Proc.devRef .tc main_v54) = r2 m c := by
  refine (W5_arr m ρ c 3).trans ((combine128_region (V4 m ρ) c).trans ?_)
  show combineArr128 (W4 m ρ c (Proc.devRef .tc main_v40)) (W4 m ρ c (Proc.devRef .tc main_v53)) (W4 m ρ c (Proc.devRef .tc main_v27)) = _
  rw [W4_main_v40, W4_main_v53, W4_main_v27]
theorem W5_main_v27 : W5 m ρ c (Proc.devRef .tc main_v27) = r1 m c :=
  ((W5_arr m ρ c 2).trans (((dat2 (V4 m ρ) c).arrAt_in 2 rfl _).trans (A_eq2 (V4 m ρ) c 2))).trans (W4_main_v27 m ρ c)
theorem W5_main_v0 : W5 m ρ c (Proc.devRef .tc main_v0) = r0 m c := (W5_of_ne m ρ c main_v0 (by decide)).trans (W4_main_v0 m ρ c)
theorem W5_main_arg5 : W5 m ρ c (Proc.devRef .tc main_arg5) = m ((c : Thread nD τ).loc main_arg5) := (W5_of_ne m ρ c main_arg5 (by decide)).trans (W4_main_arg5 m ρ c)

/-! ## After the third stretch: the weight matrix's three blocks -/

theorem W6_main_v55 : W6 m ρ c (Proc.devRef .tc main_v55) = weights0 (m ((c : Thread nD τ).loc main_arg5)) := by
  show after hostOps3 (W5 m ρ c) (Proc.devRef .tc main_v55) = _
  rw [hostOps3_main_v55, W5_main_arg5]
theorem W6_main_v56 : W6 m ρ c (Proc.devRef .tc main_v56) = weights1 (m ((c : Thread nD τ).loc main_arg5)) := by
  show after hostOps3 (W5 m ρ c) (Proc.devRef .tc main_v56) = _
  rw [hostOps3_main_v56, W5_main_arg5]
theorem W6_main_v57 : W6 m ρ c (Proc.devRef .tc main_v57) = weights2 (m ((c : Thread nD τ).loc main_arg5)) := by
  show after hostOps3 (W5 m ρ c) (Proc.devRef .tc main_v57) = _
  rw [hostOps3_main_v57, W5_main_arg5]
theorem W6_main_v0 : W6 m ρ c (Proc.devRef .tc main_v0) = r0 m c := by
  show after hostOps3 (W5 m ρ c) (Proc.devRef .tc main_v0) = _
  rw [hostOps3_keeps_main_v0, W5_main_v0]
theorem W6_main_v27 : W6 m ρ c (Proc.devRef .tc main_v27) = r1 m c := by
  show after hostOps3 (W5 m ρ c) (Proc.devRef .tc main_v27) = _
  rw [hostOps3_keeps_main_v27, W5_main_v27]
theorem W6_main_v54 : W6 m ρ c (Proc.devRef .tc main_v54) = r2 m c := by
  show after hostOps3 (W5 m ρ c) (Proc.devRef .tc main_v54) = _
  rw [hostOps3_keeps_main_v54, W5_main_v54]

/-! ## After region 3: the result -/

theorem W7_main_v58 : W7 m ρ c (Proc.devRef .tc main_v58) = kernelValue m c := by
  refine (W7_arr m ρ c 6).trans ((classify_region (V6 m ρ) c).trans ?_)
  show classifyArr (W6 m ρ c (Proc.devRef .tc main_v0)) (W6 m ρ c (Proc.devRef .tc main_v27)) (W6 m ρ c (Proc.devRef .tc main_v54))
      (W6 m ρ c (Proc.devRef .tc main_v55)) (W6 m ρ c (Proc.devRef .tc main_v56)) (W6 m ρ c (Proc.devRef .tc main_v57)) = _
  rw [W6_main_v0, W6_main_v27, W6_main_v54, W6_main_v55, W6_main_v56, W6_main_v57]

/-- The result buffer at the last boundary is the kernel's value of the launch's argument arrays. -/
theorem W7_value : W7 m ρ c (Proc.devRef .tc main_v58)
    = valueOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_main_v58 m ρ c).trans (by unfold valueOf; rfl)

end Cert.KernelIdeal.Chain

end
-- ==== Proof.RefLine.lean ====
/-
  The reference program as a line of host operations, cut where its stages end: the embedding; for each of the two hops
  two propagations along the edges and the combination; the classifier. The whole line is the program (`main_eq`), the
  segments end to end are the whole line (`ops_eq`), and every weakly fair execution ends with each buffer at the
  line's fold over the launch contents (`run_after`).
-/
import proofs.«102055_j4252017623285_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The embedding: the product of the features with the embedding weights, clipped at zero (into `main_v1`). -/
abbrev opsEmbed : List (HloOp τ sig (Elt F)) :=
  [ binary main_arg0 main_arg4 main_v0 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v0) (TRef.of (T := ⟨S50000x64, .f32⟩) main_call0_v0) (TRef.of (T := ⟨S50000x64, .f32⟩) main_v1) maximumf ]

/-- The first propagation along the edges at width 64 (from `main_v1` into `main_v14`). -/
abbrev opsSpreadA1 : List (HloOp τ sig (Elt F)) :=
  [ unary main_arg3 main_v2 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v3 (broadcastInDim S800000 ![] bcast_S_S800000 : (⟨S_, .i32⟩ : BufTy).Contents (Elt F) → (⟨S800000, .i32⟩ : BufTy).Contents (Elt F)),
    binary main_arg2 main_v3 main_v4 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v5 (broadcastInDim S800000 ![] bcast_S_S800000 : (⟨S_, .i32⟩ : BufTy).Contents (Elt F) → (⟨S800000, .i32⟩ : BufTy).Contents (Elt F)),
    binary main_arg2 main_v5 main_v6 (addi : (⟨S800000, .i32⟩ : BufTy).Contents (Elt F) → (⟨S800000, .i32⟩ : BufTy).Contents (Elt F) → (⟨S800000, .i32⟩ : BufTy).Contents (Elt F)),
    ternary main_v4 main_v6 main_arg2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v7 main_v8 (broadcastInDim S800000x1 ![0] bcast_S800000_S800000x1_0 : (⟨S800000, .i32⟩ : BufTy).Contents (Elt F) → (⟨S800000x1, .i32⟩ : BufTy).Contents (Elt F)),
    binary main_v1 main_v8 main_v9 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v2 main_v10 (broadcastInDim S800000x64 ![0, 1] bcast_S800000x1_S800000x64_0_1 : (⟨S800000x1, .f32⟩ : BufTy).Contents (Elt F) → (⟨S800000x64, .f32⟩ : BufTy).Contents (Elt F)),
    binary main_v10 main_v9 main_v11 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v12 (broadcastInDim S50000x64 ![] bcast_S_S50000x64 : (⟨S_, .f32⟩ : BufTy).Contents (Elt F) → (⟨S50000x64, .f32⟩ : BufTy).Contents (Elt F)),
    unary main_arg1 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The second propagation at width 64 (from `main_v14` into `main_v27`). -/
abbrev opsSpreadA2 : List (HloOp τ sig (Elt F)) :=
  [ unary main_arg3 main_v15 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_arg2 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_arg2 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v15 main_v23 (broadcastInDim S800000x64 ![0, 1] bcast_S800000x1_S800000x64_0_1 : (⟨S800000x1, .f32⟩ : BufTy).Contents (Elt F) → (⟨S800000x64, .f32⟩ : BufTy).Contents (Elt F)),
    binary main_v23 main_v22 main_v24 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v25 (broadcastInDim S50000x64 ![] bcast_S_S50000x64 : (⟨S_, .f32⟩ : BufTy).Contents (Elt F) → (⟨S50000x64, .f32⟩ : BufTy).Contents (Elt F)),
    unary main_arg1 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The first hop's combination (from `main_v14`, `main_v27`, `main_v1` into `main_v32`). -/
abbrev opsCombineA : List (HloOp τ sig (Elt F)) :=
  [ binary main_v14 main_v1 main_v28 (subf : (⟨S50000x64, .f32⟩ : BufTy).Contents (Elt F) → (⟨S50000x64, .f32⟩ : BufTy).Contents (Elt F) → (⟨S50000x64, .f32⟩ : BufTy).Contents (Elt F)),
    binary main_v27 main_v14 main_v29 (subf : (⟨S50000x64, .f32⟩ : BufTy).Contents (Elt F) → (⟨S50000x64, .f32⟩ : BufTy).Contents (Elt F) → (⟨S50000x64, .f32⟩ : BufTy).Contents (Elt F)),
    binary main_v29 main_v1 main_v30 (subf : (⟨S50000x64, .f32⟩ : BufTy).Contents (Elt F) → (⟨S50000x64, .f32⟩ : BufTy).Contents (Elt F) → (⟨S50000x64, .f32⟩ : BufTy).Contents (Elt F)),
    binary main_v28 main_v30 main_v31 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf ]

/-- The first propagation at width 128 (from `main_v32` into `main_v45`). -/
abbrev opsSpreadB1 : List (HloOp τ sig (Elt F)) :=
  [ unary main_arg3 main_v33 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_arg2 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_arg2 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg2 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v32 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v41 (broadcastInDim S800000x128 ![0, 1] bcast_S800000x1_S800000x128_0_1 : (⟨S800000x1, .f32⟩ : BufTy).Contents (Elt F) → (⟨S800000x128, .f32⟩ : BufTy).Contents (Elt F)),
    binary main_v41 main_v40 main_v42 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v43 (broadcastInDim S50000x128 ![] bcast_S_S50000x128 : (⟨S_, .f32⟩ : BufTy).Contents (Elt F) → (⟨S50000x128, .f32⟩ : BufTy).Contents (Elt F)),
    unary main_arg1 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second propagation at width 128 (from `main_v45` into `main_v58`). -/
abbrev opsSpreadB2 : List (HloOp τ sig (Elt F)) :=
  [ unary main_arg3 main_v46 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v47 (broadcastInDim S800000 ![] bcast_S_S800000 : (⟨S_, .i32⟩ : BufTy).Contents (Elt F) → (⟨S800000, .i32⟩ : BufTy).Contents (Elt F)),
    binary main_arg2 main_v47 main_v48 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v49 (broadcastInDim S800000 ![] bcast_S_S800000 : (⟨S_, .i32⟩ : BufTy).Contents (Elt F) → (⟨S800000, .i32⟩ : BufTy).Contents (Elt F)),
    binary main_arg2 main_v49 main_v50 (addi : (⟨S800000, .i32⟩ : BufTy).Contents (Elt F) → (⟨S800000, .i32⟩ : BufTy).Contents (Elt F) → (⟨S800000, .i32⟩ : BufTy).Contents (Elt F)),
    ternary main_v48 main_v50 main_arg2 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v51 main_v52 (broadcastInDim S800000x1 ![0] bcast_S800000_S800000x1_0 : (⟨S800000, .i32⟩ : BufTy).Contents (Elt F) → (⟨S800000x1, .i32⟩ : BufTy).Contents (Elt F)),
    binary main_v45 main_v52 main_v53 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v46 main_v54 (broadcastInDim S800000x128 ![0, 1] bcast_S800000x1_S800000x128_0_1 : (⟨S800000x1, .f32⟩ : BufTy).Contents (Elt F) → (⟨S800000x128, .f32⟩ : BufTy).Contents (Elt F)),
    binary main_v54 main_v53 main_v55 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v56 (broadcastInDim S50000x128 ![] bcast_S_S50000x128 : (⟨S_, .f32⟩ : BufTy).Contents (Elt F) → (⟨S50000x128, .f32⟩ : BufTy).Contents (Elt F)),
    unary main_arg1 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second hop's combination (from `main_v45`, `main_v58`, `main_v32` into `main_v63`). -/
abbrev opsCombineB : List (HloOp τ sig (Elt F)) :=
  [ binary main_v45 main_v32 main_v59 (subf : (⟨S50000x128, .f32⟩ : BufTy).Contents (Elt F) → (⟨S50000x128, .f32⟩ : BufTy).Contents (Elt F) → (⟨S50000x128, .f32⟩ : BufTy).Contents (Elt F)),
    binary main_v58 main_v45 main_v60 (subf : (⟨S50000x128, .f32⟩ : BufTy).Contents (Elt F) → (⟨S50000x128, .f32⟩ : BufTy).Contents (Elt F) → (⟨S50000x128, .f32⟩ : BufTy).Contents (Elt F)),
    binary main_v60 main_v32 main_v61 (subf : (⟨S50000x128, .f32⟩ : BufTy).Contents (Elt F) → (⟨S50000x128, .f32⟩ : BufTy).Contents (Elt F) → (⟨S50000x128, .f32⟩ : BufTy).Contents (Elt F)),
    binary main_v59 main_v61 main_v62 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v62) (TRef.of (T := ⟨S50000x256, .f32⟩) main_call2_v0) (TRef.of (T := ⟨S50000x256, .f32⟩) main_v63) maximumf ]

/-- The classifier: the three feature arrays side by side, times the classifier weights, and the softmax along each row (into `main_v76`). -/
abbrev opsClassify : List (HloOp τ sig (Elt F)) :=
  [ nary ![main_v1, main_v32, main_v63] main_v64 (fun u => concatenate S50000x448 1 [⟨S50000x64, u 0⟩, ⟨S50000x128, u 1⟩, ⟨S50000x256, u 2⟩] concatenates_S50000x64_S50000x128_S50000x256_S50000x448_d1),
    binary main_v64 main_arg5 main_v65 ((fun l r => Host.dotGeneral dot_S50000x448_S448x64_S50000x64_1_0_0_1_n_n none l r) : (⟨S50000x448, .f32⟩ : BufTy).Contents (Elt F) → (⟨S448x64, .f32⟩ : BufTy).Contents (Elt F) → (⟨S50000x64, .f32⟩ : BufTy).Contents (Elt F)),
    nullary main_cst_10 (constant S_ .f32 0xFF800000#32),
    binary main_v65 main_cst_10 main_v66 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_cst_11 (constant S_ .f32 0xFF800000#32),
    unary main_cst_11 main_v67 (broadcastInDim S50000 ![] bcast_S_S50000 : (⟨S_, .f32⟩ : BufTy).Contents (Elt F) → (⟨S50000, .f32⟩ : BufTy).Contents (Elt F)),
    binary main_v67 main_v66 main_v68 (maximumf : (⟨S50000, .f32⟩ : BufTy).Contents (Elt F) → (⟨S50000, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x64 ![0, 1] bcast_S50000x1_S50000x64_0_1 : (⟨S50000x1, .f32⟩ : BufTy).Contents (Elt F) → (⟨S50000x64, .f32⟩ : BufTy).Contents (Elt F)),
    binary main_v65 main_v70 main_v71 (subf : (⟨S50000x64, .f32⟩ : BufTy).Contents (Elt F) → (⟨S50000x64, .f32⟩ : BufTy).Contents (Elt F) → (⟨S50000x64, .f32⟩ : BufTy).Contents (Elt F)),
    unary main_v71 main_v72 (Host.exp : (⟨S50000x64, .f32⟩ : BufTy).Contents (Elt F) → (⟨S50000x64, .f32⟩ : BufTy).Contents (Elt F)),
    nullary main_cst_12 (constant S_ .f32 0x00000000#32),
    binary main_v72 main_cst_12 main_v73 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v73 main_v74 (broadcastInDim S50000x1 ![0] bcast_S50000_S50000x1_0 : (⟨S50000, .f32⟩ : BufTy).Contents (Elt F) → (⟨S50000x1, .f32⟩ : BufTy).Contents (Elt F)),
    unary main_v74 main_v75 (broadcastInDim S50000x64 ![0, 1] bcast_S50000x1_S50000x64_0_1 : (⟨S50000x1, .f32⟩ : BufTy).Contents (Elt F) → (⟨S50000x64, .f32⟩ : BufTy).Contents (Elt F)),
    binary main_v72 main_v75 main_v76 (Host.divf : (⟨S50000x64, .f32⟩ : BufTy).Contents (Elt F) → (⟨S50000x64, .f32⟩ : BufTy).Contents (Elt F) → (⟨S50000x64, .f32⟩ : BufTy).Contents (Elt F)) ]

/-- The program's 98 operations in order (a called function's operations stand in its call's place). -/
abbrev ops : List (HloOp τ sig (Elt F)) :=
  [ binary main_arg0 main_arg4 main_v0 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v0) (TRef.of (T := ⟨S50000x64, .f32⟩) main_call0_v0) (TRef.of (T := ⟨S50000x64, .f32⟩) main_v1) maximumf,
    unary main_arg3 main_v2 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v3 (broadcastInDim S800000 ![] bcast_S_S800000 : (⟨S_, .i32⟩ : BufTy).Contents (Elt F) → (⟨S800000, .i32⟩ : BufTy).Contents (Elt F)),
    binary main_arg2 main_v3 main_v4 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v5 (broadcastInDim S800000 ![] bcast_S_S800000 : (⟨S_, .i32⟩ : BufTy).Contents (Elt F) → (⟨S800000, .i32⟩ : BufTy).Contents (Elt F)),
    binary main_arg2 main_v5 main_v6 (addi : (⟨S800000, .i32⟩ : BufTy).Contents (Elt F) → (⟨S800000, .i32⟩ : BufTy).Contents (Elt F) → (⟨S800000, .i32⟩ : BufTy).Contents (Elt F)),
    ternary main_v4 main_v6 main_arg2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v7 main_v8 (broadcastInDim S800000x1 ![0] bcast_S800000_S800000x1_0 : (⟨S800000, .i32⟩ : BufTy).Contents (Elt F) → (⟨S800000x1, .i32⟩ : BufTy).Contents (Elt F)),
    binary main_v1 main_v8 main_v9 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v2 main_v10 (broadcastInDim S800000x64 ![0, 1] bcast_S800000x1_S800000x64_0_1 : (⟨S800000x1, .f32⟩ : BufTy).Contents (Elt F) → (⟨S800000x64, .f32⟩ : BufTy).Contents (Elt F)),
    binary main_v10 main_v9 main_v11 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v12 (broadcastInDim S50000x64 ![] bcast_S_S50000x64 : (⟨S_, .f32⟩ : BufTy).Contents (Elt F) → (⟨S50000x64, .f32⟩ : BufTy).Contents (Elt F)),
    unary main_arg1 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg3 main_v15 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_arg2 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_arg2 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v15 main_v23 (broadcastInDim S800000x64 ![0, 1] bcast_S800000x1_S800000x64_0_1 : (⟨S800000x1, .f32⟩ : BufTy).Contents (Elt F) → (⟨S800000x64, .f32⟩ : BufTy).Contents (Elt F)),
    binary main_v23 main_v22 main_v24 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v25 (broadcastInDim S50000x64 ![] bcast_S_S50000x64 : (⟨S_, .f32⟩ : BufTy).Contents (Elt F) → (⟨S50000x64, .f32⟩ : BufTy).Contents (Elt F)),
    unary main_arg1 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v14 main_v1 main_v28 (subf : (⟨S50000x64, .f32⟩ : BufTy).Contents (Elt F) → (⟨S50000x64, .f32⟩ : BufTy).Contents (Elt F) → (⟨S50000x64, .f32⟩ : BufTy).Contents (Elt F)),
    binary main_v27 main_v14 main_v29 (subf : (⟨S50000x64, .f32⟩ : BufTy).Contents (Elt F) → (⟨S50000x64, .f32⟩ : BufTy).Contents (Elt F) → (⟨S50000x64, .f32⟩ : BufTy).Contents (Elt F)),
    binary main_v29 main_v1 main_v30 (subf : (⟨S50000x64, .f32⟩ : BufTy).Contents (Elt F) → (⟨S50000x64, .f32⟩ : BufTy).Contents (Elt F) → (⟨S50000x64, .f32⟩ : BufTy).Contents (Elt F)),
    binary main_v28 main_v30 main_v31 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf,
    unary main_arg3 main_v33 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_arg2 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_arg2 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_arg2 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v32 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v41 (broadcastInDim S800000x128 ![0, 1] bcast_S800000x1_S800000x128_0_1 : (⟨S800000x1, .f32⟩ : BufTy).Contents (Elt F) → (⟨S800000x128, .f32⟩ : BufTy).Contents (Elt F)),
    binary main_v41 main_v40 main_v42 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v43 (broadcastInDim S50000x128 ![] bcast_S_S50000x128 : (⟨S_, .f32⟩ : BufTy).Contents (Elt F) → (⟨S50000x128, .f32⟩ : BufTy).Contents (Elt F)),
    unary main_arg1 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg3 main_v46 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v47 (broadcastInDim S800000 ![] bcast_S_S800000 : (⟨S_, .i32⟩ : BufTy).Contents (Elt F) → (⟨S800000, .i32⟩ : BufTy).Contents (Elt F)),
    binary main_arg2 main_v47 main_v48 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v49 (broadcastInDim S800000 ![] bcast_S_S800000 : (⟨S_, .i32⟩ : BufTy).Contents (Elt F) → (⟨S800000, .i32⟩ : BufTy).Contents (Elt F)),
    binary main_arg2 main_v49 main_v50 (addi : (⟨S800000, .i32⟩ : BufTy).Contents (Elt F) → (⟨S800000, .i32⟩ : BufTy).Contents (Elt F) → (⟨S800000, .i32⟩ : BufTy).Contents (Elt F)),
    ternary main_v48 main_v50 main_arg2 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v51 main_v52 (broadcastInDim S800000x1 ![0] bcast_S800000_S800000x1_0 : (⟨S800000, .i32⟩ : BufTy).Contents (Elt F) → (⟨S800000x1, .i32⟩ : BufTy).Contents (Elt F)),
    binary main_v45 main_v52 main_v53 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v46 main_v54 (broadcastInDim S800000x128 ![0, 1] bcast_S800000x1_S800000x128_0_1 : (⟨S800000x1, .f32⟩ : BufTy).Contents (Elt F) → (⟨S800000x128, .f32⟩ : BufTy).Contents (Elt F)),
    binary main_v54 main_v53 main_v55 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v56 (broadcastInDim S50000x128 ![] bcast_S_S50000x128 : (⟨S_, .f32⟩ : BufTy).Contents (Elt F) → (⟨S50000x128, .f32⟩ : BufTy).Contents (Elt F)),
    unary main_arg1 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v45 main_v32 main_v59 (subf : (⟨S50000x128, .f32⟩ : BufTy).Contents (Elt F) → (⟨S50000x128, .f32⟩ : BufTy).Contents (Elt F) → (⟨S50000x128, .f32⟩ : BufTy).Contents (Elt F)),
    binary main_v58 main_v45 main_v60 (subf : (⟨S50000x128, .f32⟩ : BufTy).Contents (Elt F) → (⟨S50000x128, .f32⟩ : BufTy).Contents (Elt F) → (⟨S50000x128, .f32⟩ : BufTy).Contents (Elt F)),
    binary main_v60 main_v32 main_v61 (subf : (⟨S50000x128, .f32⟩ : BufTy).Contents (Elt F) → (⟨S50000x128, .f32⟩ : BufTy).Contents (Elt F) → (⟨S50000x128, .f32⟩ : BufTy).Contents (Elt F)),
    binary main_v59 main_v61 main_v62 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v62) (TRef.of (T := ⟨S50000x256, .f32⟩) main_call2_v0) (TRef.of (T := ⟨S50000x256, .f32⟩) main_v63) maximumf,
    nary ![main_v1, main_v32, main_v63] main_v64 (fun u => concatenate S50000x448 1 [⟨S50000x64, u 0⟩, ⟨S50000x128, u 1⟩, ⟨S50000x256, u 2⟩] concatenates_S50000x64_S50000x128_S50000x256_S50000x448_d1),
    binary main_v64 main_arg5 main_v65 ((fun l r => Host.dotGeneral dot_S50000x448_S448x64_S50000x64_1_0_0_1_n_n none l r) : (⟨S50000x448, .f32⟩ : BufTy).Contents (Elt F) → (⟨S448x64, .f32⟩ : BufTy).Contents (Elt F) → (⟨S50000x64, .f32⟩ : BufTy).Contents (Elt F)),
    nullary main_cst_10 (constant S_ .f32 0xFF800000#32),
    binary main_v65 main_cst_10 main_v66 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_cst_11 (constant S_ .f32 0xFF800000#32),
    unary main_cst_11 main_v67 (broadcastInDim S50000 ![] bcast_S_S50000 : (⟨S_, .f32⟩ : BufTy).Contents (Elt F) → (⟨S50000, .f32⟩ : BufTy).Contents (Elt F)),
    binary main_v67 main_v66 main_v68 (maximumf : (⟨S50000, .f32⟩ : BufTy).Contents (Elt F) → (⟨S50000, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x64 ![0, 1] bcast_S50000x1_S50000x64_0_1 : (⟨S50000x1, .f32⟩ : BufTy).Contents (Elt F) → (⟨S50000x64, .f32⟩ : BufTy).Contents (Elt F)),
    binary main_v65 main_v70 main_v71 (subf : (⟨S50000x64, .f32⟩ : BufTy).Contents (Elt F) → (⟨S50000x64, .f32⟩ : BufTy).Contents (Elt F) → (⟨S50000x64, .f32⟩ : BufTy).Contents (Elt F)),
    unary main_v71 main_v72 (Host.exp : (⟨S50000x64, .f32⟩ : BufTy).Contents (Elt F) → (⟨S50000x64, .f32⟩ : BufTy).Contents (Elt F)),
    nullary main_cst_12 (constant S_ .f32 0x00000000#32),
    binary main_v72 main_cst_12 main_v73 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v73 main_v74 (broadcastInDim S50000x1 ![0] bcast_S50000_S50000x1_0 : (⟨S50000, .f32⟩ : BufTy).Contents (Elt F) → (⟨S50000x1, .f32⟩ : BufTy).Contents (Elt F)),
    unary main_v74 main_v75 (broadcastInDim S50000x64 ![0, 1] bcast_S50000x1_S50000x64_0_1 : (⟨S50000x1, .f32⟩ : BufTy).Contents (Elt F) → (⟨S50000x64, .f32⟩ : BufTy).Contents (Elt F)),
    binary main_v72 main_v75 main_v76 (Host.divf : (⟨S50000x64, .f32⟩ : BufTy).Contents (Elt F) → (⟨S50000x64, .f32⟩ : BufTy).Contents (Elt F) → (⟨S50000x64, .f32⟩ : BufTy).Contents (Elt F)) ]

/-- The segments end to end are the whole line. -/
theorem ops_eq : (ops : List (HloOp τ sig (Elt F)))
    = opsEmbed ++ (opsSpreadA1 ++ (opsSpreadA2 ++ (opsCombineA ++ (opsSpreadB1 ++ (opsSpreadB2 ++ (opsCombineB ++ opsClassify)))))) := rfl

set_option maxRecDepth 8192 in
set_option maxHeartbeats 4000000 in
/-- The program is the line run in order. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., nary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- Every weakly fair execution of the reference terminates with each buffer at the line's fold over its launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Line

end
-- ==== Proof.RefTerms.lean ====
/-
  The reference's stages as functions of whole arrays, each written with the very host operations the reference
  applies, in its order: the embedding `max(X · W, 0)`; the propagation along the edges (gather the source rows, scale by
  the edge values, add into the target rows) at feature widths 64 and 128; the hop combination
  `max([S − R ‖ (T − S) − R], 0)`; and the classifier, the softmax along each row of `[R0 ‖ R1 ‖ R2] · W`.
-/
import proofs.«102055_j4252017623285_1_alg».proof.Proof.Gen.ReferenceIdeal
import Idealize.ShloMosaic.PureOps.Ideal

noncomputable section

namespace Cert.ReferenceIdeal.Terms

open Cert.ReferenceIdeal Cert.ReferenceIdeal.Gen Idealize.ShloMosaic

/-- An array of 800000 edge endpoints (node numbers as 32-bit words). -/
abbrev Ends := (⟨S800000, .i32⟩ : BufTy).Contents (Elt Ideal)

/-- The embedding of every node: the product clipped at zero. -/
def embedHost (X : FVec Ideal S50000x256 .f32) (W : FVec Ideal S256x64 .f32) : FVec Ideal S50000x64 .f32 :=
  maximumf (Host.dotGeneral dot_S50000x256_S256x64_S50000x64_1_0_0_1_n_n none X W)
    (broadcastInDim S50000x64 ![] bcast_S_S50000x64 (constant (F := Ideal) S_ .f32 0x00000000#32))

/-- Negative source numbers counted from the end, as an indexing operation reads them. -/
def wrapEnds (cols : Ends) : Ends :=
  select (cmpi .slt cols (broadcastInDim S800000 ![] bcast_S_S800000 (constantI S_ 32 0#32)))
    (addi cols (broadcastInDim S800000 ![] bcast_S_S800000 (constantI S_ 32 50000#32))) cols

/-- One propagation along the edges at feature width 64: row `rows e` receives `vals e` times row `cols e`. -/
def spread64Host (rows cols : Ends) (vals : FVec Ideal S800000 .f32) (R : FVec Ideal S50000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 R
        (broadcastInDim S800000x1 ![0] bcast_S800000_S800000x1_0 (wrapEnds cols))))

/-- The same at feature width 128. -/
def spread128Host (rows cols : Ends) (vals : FVec Ideal S800000 .f32) (R : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 R
        (broadcastInDim S800000x1 ![0] bcast_S800000_S800000x1_0 (wrapEnds cols))))

/-- The hop combination at width 64: the two differences side by side, clipped at zero. -/
def combine64Host (S T R : FVec Ideal S50000x64 .f32) : FVec Ideal S50000x128 .f32 :=
  maximumf (concatenate S50000x128 1 [⟨S50000x64, subf S R⟩, ⟨S50000x64, subf (subf T S) R⟩] concatenates_S50000x64_S50000x64_S50000x128_d1)
    (broadcastInDim S50000x128 ![] bcast_S_S50000x128 (constant (F := Ideal) S_ .f32 0x00000000#32))

/-- The hop combination at width 128. -/
def combine128Host (S T R : FVec Ideal S50000x128 .f32) : FVec Ideal S50000x256 .f32 :=
  maximumf (concatenate S50000x256 1 [⟨S50000x128, subf S R⟩, ⟨S50000x128, subf (subf T S) R⟩] concatenates_S50000x128_S50000x128_S50000x256_d1)
    (broadcastInDim S50000x256 ![] bcast_S_S50000x256 (constant (F := Ideal) S_ .f32 0x00000000#32))

/-- Each row's largest logit (from minus infinity, and once more against minus infinity), as a column spread over the row. -/
def topHost (L : FVec Ideal S50000x64 .f32) : FVec Ideal S50000x64 .f32 :=
  broadcastInDim S50000x64 ![0, 1] bcast_S50000x1_S50000x64_0_1 (broadcastInDim S50000x1 ![0] bcast_S50000_S50000x1_0
    (maximumf (broadcastInDim S50000 ![] bcast_S_S50000 (constant (F := Ideal) S_ .f32 0xFF800000#32))
      (Host.reduce FloatOps.maximumf L (constant (F := Ideal) S_ .f32 0xFF800000#32) reducesTo_S50000x64_S50000_d1 h_S_)))

/-- The exponentials of the logits less their row's largest. -/
def expHost (L : FVec Ideal S50000x64 .f32) : FVec Ideal S50000x64 .f32 := Host.exp (subf L (topHost L))

/-- The softmax along each row. -/
def softmaxHost (L : FVec Ideal S50000x64 .f32) : FVec Ideal S50000x64 .f32 :=
  Host.divf (expHost L) (broadcastInDim S50000x64 ![0, 1] bcast_S50000x1_S50000x64_0_1 (broadcastInDim S50000x1 ![0] bcast_S50000_S50000x1_0
    (Host.reduceAdd (expHost L) (constant (F := Ideal) S_ .f32 0x00000000#32) reducesTo_S50000x64_S50000_d1 h_S_)))

/-- The logits: the three feature arrays side by side, times the weight matrix. -/
def logitsHost (R0 : FVec Ideal S50000x64 .f32) (R1 : FVec Ideal S50000x128 .f32) (R2 : FVec Ideal S50000x256 .f32)
    (W : FVec Ideal S448x64 .f32) : FVec Ideal S50000x64 .f32 :=
  Host.dotGeneral dot_S50000x448_S448x64_S50000x64_1_0_0_1_n_n none
    (concatenate S50000x448 1 [⟨S50000x64, R0⟩, ⟨S50000x128, R1⟩, ⟨S50000x256, R2⟩] concatenates_S50000x64_S50000x128_S50000x256_S50000x448_d1) W

/-- The classifier. -/
def classifyHost (R0 : FVec Ideal S50000x64 .f32) (R1 : FVec Ideal S50000x128 .f32) (R2 : FVec Ideal S50000x256 .f32)
    (W : FVec Ideal S448x64 .f32) : FVec Ideal S50000x64 .f32 := softmaxHost (logitsHost R0 R1 R2 W)

end Cert.ReferenceIdeal.Terms

end
-- ==== Proof.RefRead.lean ====
/-
  The reference's line read segment by segment. After a segment, from any buffer contents `V`, the segment's result
  buffer holds the stage's function (Terms) of the buffers the stage reads, and the buffers later stages still need are
  as `V` had them. Composed from the launch contents: the result buffer ends at the classifier of the embedding, the
  first hop's features and the second hop's features (`result_eq`).
-/
import proofs.«102055_j4252017623285_1_alg».proof.Proof.RefLine
import proofs.«102055_j4252017623285_1_alg».proof.Proof.RefTerms
import proofs.«102055_j4252017623285_1_alg».proof.Proof.LibAfterAppend

set_option maxRecDepth 8192
-- a segment of sixteen operations is read in one pass over its fold, past the default budget
set_option maxHeartbeats 4000000

noncomputable section

namespace Cert.ReferenceIdeal.Line

open Cert.ReferenceIdeal Cert.ReferenceIdeal.Gen Cert.ReferenceIdeal.Terms Idealize.ShloMosaic Idealize.ShloMosaic.TcCoe Idealize.SL.Sem Idealize.ShloMosaic.StableHlo

variable (V : Valuation τ sig (Elt Ideal))

/-! ## What each segment leaves in its result buffer -/

theorem embed_seg : after (opsEmbed (F := Ideal)) V (Proc.devRef .tc main_v1) = embedHost (V (Proc.devRef .tc main_arg0)) (V (Proc.devRef .tc main_arg4)) := by
  after_results_simp
  rfl

theorem spreadA1_seg : after (opsSpreadA1 (F := Ideal)) V (Proc.devRef .tc main_v14) = spread64Host (V (Proc.devRef .tc main_arg1)) (V (Proc.devRef .tc main_arg2)) (V (Proc.devRef .tc main_arg3)) (V (Proc.devRef .tc main_v1)) := by
  after_results_simp
  rfl

theorem spreadA2_seg : after (opsSpreadA2 (F := Ideal)) V (Proc.devRef .tc main_v27) = spread64Host (V (Proc.devRef .tc main_arg1)) (V (Proc.devRef .tc main_arg2)) (V (Proc.devRef .tc main_arg3)) (V (Proc.devRef .tc main_v14)) := by
  after_results_simp
  rfl

theorem combineA_seg : after (opsCombineA (F := Ideal)) V (Proc.devRef .tc main_v32) = combine64Host (V (Proc.devRef .tc main_v14)) (V (Proc.devRef .tc main_v27)) (V (Proc.devRef .tc main_v1)) := by
  after_results_simp
  rfl

theorem spreadB1_seg : after (opsSpreadB1 (F := Ideal)) V (Proc.devRef .tc main_v45) = spread128Host (V (Proc.devRef .tc main_arg1)) (V (Proc.devRef .tc main_arg2)) (V (Proc.devRef .tc main_arg3)) (V (Proc.devRef .tc main_v32)) := by
  after_results_simp
  rfl

theorem spreadB2_seg : after (opsSpreadB2 (F := Ideal)) V (Proc.devRef .tc main_v58) = spread128Host (V (Proc.devRef .tc main_arg1)) (V (Proc.devRef .tc main_arg2)) (V (Proc.devRef .tc main_arg3)) (V (Proc.devRef .tc main_v45)) := by
  after_results_simp
  rfl

theorem combineB_seg : after (opsCombineB (F := Ideal)) V (Proc.devRef .tc main_v63) = combine128Host (V (Proc.devRef .tc main_v45)) (V (Proc.devRef .tc main_v58)) (V (Proc.devRef .tc main_v32)) := by
  after_results_simp
  rfl

theorem classify_seg : after (opsClassify (F := Ideal)) V (Proc.devRef .tc main_v76) = classifyHost (V (Proc.devRef .tc main_v1)) (V (Proc.devRef .tc main_v32)) (V (Proc.devRef .tc main_v63)) (V (Proc.devRef .tc main_arg5)) := by
  after_results_simp
  rfl

/-! ## What each segment leaves alone -/

theorem embed_keeps_main_arg5 : after (opsEmbed (F := Ideal)) V (Proc.devRef .tc main_arg5) = V (Proc.devRef .tc main_arg5) := by
  after_results_simp

theorem embed_keeps_main_arg1 : after (opsEmbed (F := Ideal)) V (Proc.devRef .tc main_arg1) = V (Proc.devRef .tc main_arg1) := by
  after_results_simp

theorem embed_keeps_main_arg2 : after (opsEmbed (F := Ideal)) V (Proc.devRef .tc main_arg2) = V (Proc.devRef .tc main_arg2) := by
  after_results_simp

theorem embed_keeps_main_arg3 : after (opsEmbed (F := Ideal)) V (Proc.devRef .tc main_arg3) = V (Proc.devRef .tc main_arg3) := by
  after_results_simp

theorem spreadA1_keeps_main_v1 : after (opsSpreadA1 (F := Ideal)) V (Proc.devRef .tc main_v1) = V (Proc.devRef .tc main_v1) := by
  after_results_simp

theorem spreadA1_keeps_main_arg5 : after (opsSpreadA1 (F := Ideal)) V (Proc.devRef .tc main_arg5) = V (Proc.devRef .tc main_arg5) := by
  after_results_simp

theorem spreadA1_keeps_main_arg1 : after (opsSpreadA1 (F := Ideal)) V (Proc.devRef .tc main_arg1) = V (Proc.devRef .tc main_arg1) := by
  after_results_simp

theorem spreadA1_keeps_main_arg2 : after (opsSpreadA1 (F := Ideal)) V (Proc.devRef .tc main_arg2) = V (Proc.devRef .tc main_arg2) := by
  after_results_simp

theorem spreadA1_keeps_main_arg3 : after (opsSpreadA1 (F := Ideal)) V (Proc.devRef .tc main_arg3) = V (Proc.devRef .tc main_arg3) := by
  after_results_simp

theorem spreadA2_keeps_main_v1 : after (opsSpreadA2 (F := Ideal)) V (Proc.devRef .tc main_v1) = V (Proc.devRef .tc main_v1) := by
  after_results_simp

theorem spreadA2_keeps_main_arg5 : after (opsSpreadA2 (F := Ideal)) V (Proc.devRef .tc main_arg5) = V (Proc.devRef .tc main_arg5) := by
  after_results_simp

theorem spreadA2_keeps_main_arg1 : after (opsSpreadA2 (F := Ideal)) V (Proc.devRef .tc main_arg1) = V (Proc.devRef .tc main_arg1) := by
  after_results_simp

theorem spreadA2_keeps_main_arg2 : after (opsSpreadA2 (F := Ideal)) V (Proc.devRef .tc main_arg2) = V (Proc.devRef .tc main_arg2) := by
  after_results_simp

theorem spreadA2_keeps_main_arg3 : after (opsSpreadA2 (F := Ideal)) V (Proc.devRef .tc main_arg3) = V (Proc.devRef .tc main_arg3) := by
  after_results_simp

theorem spreadA2_keeps_main_v14 : after (opsSpreadA2 (F := Ideal)) V (Proc.devRef .tc main_v14) = V (Proc.devRef .tc main_v14) := by
  after_results_simp

theorem combineA_keeps_main_v1 : after (opsCombineA (F := Ideal)) V (Proc.devRef .tc main_v1) = V (Proc.devRef .tc main_v1) := by
  after_results_simp

theorem combineA_keeps_main_arg5 : after (opsCombineA (F := Ideal)) V (Proc.devRef .tc main_arg5) = V (Proc.devRef .tc main_arg5) := by
  after_results_simp

theorem combineA_keeps_main_arg1 : after (opsCombineA (F := Ideal)) V (Proc.devRef .tc main_arg1) = V (Proc.devRef .tc main_arg1) := by
  after_results_simp

theorem combineA_keeps_main_arg2 : after (opsCombineA (F := Ideal)) V (Proc.devRef .tc main_arg2) = V (Proc.devRef .tc main_arg2) := by
  after_results_simp

theorem combineA_keeps_main_arg3 : after (opsCombineA (F := Ideal)) V (Proc.devRef .tc main_arg3) = V (Proc.devRef .tc main_arg3) := by
  after_results_simp

theorem spreadB1_keeps_main_v1 : after (opsSpreadB1 (F := Ideal)) V (Proc.devRef .tc main_v1) = V (Proc.devRef .tc main_v1) := by
  after_results_simp

theorem spreadB1_keeps_main_v32 : after (opsSpreadB1 (F := Ideal)) V (Proc.devRef .tc main_v32) = V (Proc.devRef .tc main_v32) := by
  after_results_simp

theorem spreadB1_keeps_main_arg5 : after (opsSpreadB1 (F := Ideal)) V (Proc.devRef .tc main_arg5) = V (Proc.devRef .tc main_arg5) := by
  after_results_simp

theorem spreadB1_keeps_main_arg1 : after (opsSpreadB1 (F := Ideal)) V (Proc.devRef .tc main_arg1) = V (Proc.devRef .tc main_arg1) := by
  after_results_simp

theorem spreadB1_keeps_main_arg2 : after (opsSpreadB1 (F := Ideal)) V (Proc.devRef .tc main_arg2) = V (Proc.devRef .tc main_arg2) := by
  after_results_simp

theorem spreadB1_keeps_main_arg3 : after (opsSpreadB1 (F := Ideal)) V (Proc.devRef .tc main_arg3) = V (Proc.devRef .tc main_arg3) := by
  after_results_simp

theorem spreadB2_keeps_main_v1 : after (opsSpreadB2 (F := Ideal)) V (Proc.devRef .tc main_v1) = V (Proc.devRef .tc main_v1) := by
  after_results_simp

theorem spreadB2_keeps_main_v32 : after (opsSpreadB2 (F := Ideal)) V (Proc.devRef .tc main_v32) = V (Proc.devRef .tc main_v32) := by
  after_results_simp

theorem spreadB2_keeps_main_arg5 : after (opsSpreadB2 (F := Ideal)) V (Proc.devRef .tc main_arg5) = V (Proc.devRef .tc main_arg5) := by
  after_results_simp

theorem spreadB2_keeps_main_v45 : after (opsSpreadB2 (F := Ideal)) V (Proc.devRef .tc main_v45) = V (Proc.devRef .tc main_v45) := by
  after_results_simp

theorem combineB_keeps_main_v1 : after (opsCombineB (F := Ideal)) V (Proc.devRef .tc main_v1) = V (Proc.devRef .tc main_v1) := by
  after_results_simp

theorem combineB_keeps_main_v32 : after (opsCombineB (F := Ideal)) V (Proc.devRef .tc main_v32) = V (Proc.devRef .tc main_v32) := by
  after_results_simp

theorem combineB_keeps_main_arg5 : after (opsCombineB (F := Ideal)) V (Proc.devRef .tc main_arg5) = V (Proc.devRef .tc main_arg5) := by
  after_results_simp

/-! ## The whole line -/

/-- The reference's result as a function of its six arguments: the classifier of the embedding `r0`, the first hop's
    features `r1` and the second hop's `r2`, each hop combining one and two propagations of the features before it. -/
def refValue (X : FVec Ideal S50000x256 .f32) (rows cols : Ends) (vals : FVec Ideal S800000 .f32)
    (W4 : FVec Ideal S256x64 .f32) (W5 : FVec Ideal S448x64 .f32) : FVec Ideal S50000x64 .f32 :=
  let r0 := embedHost X W4
  let s1 := spread64Host rows cols vals r0
  let r1 := combine64Host s1 (spread64Host rows cols vals s1) r0
  let s2 := spread128Host rows cols vals r1
  let r2 := combine128Host s2 (spread128Host rows cols vals s2) r1
  classifyHost r0 r1 r2 W5

/-- After the whole line, from contents `V`, the result buffer holds `refValue` of the argument buffers. -/
theorem result_eq : after (ops (F := Ideal)) V (Proc.devRef .tc main_v76)
    = refValue (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_eq]
  simp only [after_append]
  rw [classify_seg]
  rw [combineB_seg, combineB_keeps_main_v1, combineB_keeps_main_v32, combineB_keeps_main_arg5]
  rw [spreadB2_seg, spreadB2_keeps_main_v1, spreadB2_keeps_main_v32, spreadB2_keeps_main_arg5, spreadB2_keeps_main_v45]
  rw [spreadB1_seg, spreadB1_keeps_main_v1, spreadB1_keeps_main_v32, spreadB1_keeps_main_arg5, spreadB1_keeps_main_arg1, spreadB1_keeps_main_arg2, spreadB1_keeps_main_arg3]
  rw [combineA_seg, combineA_keeps_main_v1, combineA_keeps_main_arg5, combineA_keeps_main_arg1, combineA_keeps_main_arg2, combineA_keeps_main_arg3]
  rw [spreadA2_seg, spreadA2_keeps_main_v1, spreadA2_keeps_main_arg5, spreadA2_keeps_main_arg1, spreadA2_keeps_main_arg2, spreadA2_keeps_main_arg3, spreadA2_keeps_main_v14]
  rw [spreadA1_seg, spreadA1_keeps_main_v1, spreadA1_keeps_main_arg5, spreadA1_keeps_main_arg1, spreadA1_keeps_main_arg2, spreadA1_keeps_main_arg3]
  rw [embed_seg, embed_keeps_main_arg5, embed_keeps_main_arg1, embed_keeps_main_arg2, embed_keeps_main_arg3]
  rfl

/-! ## The arguments are never written -/

theorem ops_keeps_main_arg0 : after (ops (F := Ideal)) V (Proc.devRef .tc main_arg0) = V (Proc.devRef .tc main_arg0) := by
  after_results_simp

theorem ops_keeps_main_arg1 : after (ops (F := Ideal)) V (Proc.devRef .tc main_arg1) = V (Proc.devRef .tc main_arg1) := by
  after_results_simp

theorem ops_keeps_main_arg2 : after (ops (F := Ideal)) V (Proc.devRef .tc main_arg2) = V (Proc.devRef .tc main_arg2) := by
  after_results_simp

theorem ops_keeps_main_arg3 : after (ops (F := Ideal)) V (Proc.devRef .tc main_arg3) = V (Proc.devRef .tc main_arg3) := by
  after_results_simp

theorem ops_keeps_main_arg4 : after (ops (F := Ideal)) V (Proc.devRef .tc main_arg4) = V (Proc.devRef .tc main_arg4) := by
  after_results_simp

theorem ops_keeps_main_arg5 : after (ops (F := Ideal)) V (Proc.devRef .tc main_arg5) = V (Proc.devRef .tc main_arg5) := by
  after_results_simp

end Cert.ReferenceIdeal.Line

end
-- ==== Proof.RefDense.lean ====
/-
  The reference's dense stages before the classifier, read entry by entry: the embedding is each node's row of
  features times the weight matrix, clipped at zero; the hop combination lays the two differences S − R and
  (T − S) − R side by side and clips at zero. Each whole-array expression is therefore the row-wise function of the
  specification applied to every node.
-/
import proofs.«102055_j4252017623285_1_alg».proof.Proof.RefTerms
import proofs.«102055_j4252017623285_1_alg».proof.Proof.Spec
import proofs.«102055_j4252017623285_1_alg».proof.Proof.LibDot
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Stages

open Cert.ReferenceIdeal Cert.ReferenceIdeal.Gen Cert.ReferenceIdeal.Terms Idealize.ShloMosaic Idealize.ShloMosaic.ValueIdx Cert.Spec

/-- A scalar zero spread over any array reads the zero word at every entry. -/
theorem zeroSplat_apply {T : Shape} (h : (⟨0, ![]⟩ : Shape).BroadcastsInDim T ![]) (idx : T.Idx) :
    broadcastInDim T ![] h (constant (F := Ideal) S_ .f32 0x00000000#32) idx = zeroW :=
  (broadcastInDim_scalar_apply h _ idx).trans rfl

/-- Entry (i, j) of the embedding: the i-th row of features against the j-th column of weights, clipped at zero. -/
theorem embed_point (X : FVec Ideal S50000x256 .f32) (W : FVec Ideal S256x64 .f32) (i : Fin 50000) (j : Fin 64) :
    embedHost X W (ix2 i j) = max (∑ k : Fin 256, X (ix2 i k) * W (ix2 k j)) zeroW := by
  unfold embedHost
  rw [maximumf_apply, zeroSplat_apply]
  exact congrArg (fun v => max v zeroW) (LibDot.hostDot_apply _ X W i j)

theorem embed_stage (X : FVec Ideal S50000x256 .f32) (W : FVec Ideal S256x64 .f32) : embedHost X W = embedArr X W := by
  funext idx
  obtain ⟨i, j, rfl⟩ : ∃ (i : Fin 50000) (j : Fin 64), idx = ix2 i j := ⟨idx 0, idx 1, eq_ix2 idx⟩
  exact embed_point X W i j

/-- Two arrays of widths a and b side by side: a column below a reads the first. -/
theorem sideBySide_left {n a b : Nat} (x : (⟨2, ![n, a]⟩ : Shape).Idx → EReal) (y : (⟨2, ![n, b]⟩ : Shape).Idx → EReal)
    (h : Shape.Concatenates [(⟨2, ![n, a]⟩ : Shape), ⟨2, ![n, b]⟩] ⟨2, ![n, a + b]⟩ 1) (i : Fin n) (j : Fin (a + b)) (hj : j.val < a) :
    concatenate ⟨2, ![n, a + b]⟩ 1 [⟨⟨2, ![n, a]⟩, x⟩, ⟨⟨2, ![n, b]⟩, y⟩] h (ix2 i j) = x (ix2 i ⟨j.val, hj⟩) :=
  concatenate_pair_apply_left (t := ⟨2, ![n, a + b]⟩) (s₁ := ⟨2, ![n, a]⟩) (s₂ := ⟨2, ![n, b]⟩) (1 : Fin 2) x y h (ix2 i j) rfl
    (ix2 i ⟨j.val, hj⟩) (fun c => by match c with | ⟨0, _⟩ => rfl | ⟨1, _⟩ => rfl)

/-- … and a column from a on reads the second, a columns earlier. -/
theorem sideBySide_right {n a b : Nat} (x : (⟨2, ![n, a]⟩ : Shape).Idx → EReal) (y : (⟨2, ![n, b]⟩ : Shape).Idx → EReal)
    (h : Shape.Concatenates [(⟨2, ![n, a]⟩ : Shape), ⟨2, ![n, b]⟩] ⟨2, ![n, a + b]⟩ 1) (i : Fin n) (j : Fin (a + b)) (hj : ¬ j.val < a) :
    concatenate ⟨2, ![n, a + b]⟩ 1 [⟨⟨2, ![n, a]⟩, x⟩, ⟨⟨2, ![n, b]⟩, y⟩] h (ix2 i j) = y (ix2 i ⟨j.val - a, by have := j.isLt; omega⟩) :=
  concatenate_pair_apply_right (t := ⟨2, ![n, a + b]⟩) (s₁ := ⟨2, ![n, a]⟩) (s₂ := ⟨2, ![n, b]⟩) (1 : Fin 2) x y h (ix2 i j) rfl rfl
    (ix2 i ⟨j.val - a, by have := j.isLt; omega⟩)
    (fun c hc => by match c with | ⟨0, _⟩ => rfl | ⟨1, _⟩ => exact absurd rfl hc)
    (by show j.val - a + a = j.val; omega)

/-- Entry (i, j) of the hop combination at width 64. -/
theorem combine64_point (S T R : FVec Ideal S50000x64 .f32) (i : Fin 50000) (j : Fin 128) :
    combine64Host S T R (ix2 i j) = combineRow64 (row S i) (row T i) (row R i) j := by
  unfold combine64Host combineRow64 row
  rw [maximumf_apply, zeroSplat_apply]
  refine congrArg (fun v => max v zeroW) ?_
  by_cases hj : j.val < 64
  · rw [dif_pos hj]
    exact sideBySide_left (n := 50000) (a := 64) (b := 64) (subf S R) (subf (subf T S) R) _ i j hj
  · rw [dif_neg hj]
    exact sideBySide_right (n := 50000) (a := 64) (b := 64) (subf S R) (subf (subf T S) R) _ i j hj

theorem combine64_stage (S T R : FVec Ideal S50000x64 .f32) : combine64Host S T R = combineArr64 S T R := by
  funext idx
  obtain ⟨i, j, rfl⟩ : ∃ (i : Fin 50000) (j : Fin 128), idx = ix2 i j := ⟨idx 0, idx 1, eq_ix2 idx⟩
  exact combine64_point S T R i j

/-- Entry (i, j) of the hop combination at width 128. -/
theorem combine128_point (S T R : FVec Ideal S50000x128 .f32) (i : Fin 50000) (j : Fin 256) :
    combine128Host S T R (ix2 i j) = combineRow128 (row S i) (row T i) (row R i) j := by
  unfold combine128Host combineRow128 row
  rw [maximumf_apply, zeroSplat_apply]
  refine congrArg (fun v => max v zeroW) ?_
  by_cases hj : j.val < 128
  · rw [dif_pos hj]
    exact sideBySide_left (n := 50000) (a := 128) (b := 128) (subf S R) (subf (subf T S) R) _ i j hj
  · rw [dif_neg hj]
    exact sideBySide_right (n := 50000) (a := 128) (b := 128) (subf S R) (subf (subf T S) R) _ i j hj

theorem combine128_stage (S T R : FVec Ideal S50000x128 .f32) : combine128Host S T R = combineArr128 S T R := by
  funext idx
  obtain ⟨i, j, rfl⟩ : ∃ (i : Fin 50000) (j : Fin 256), idx = ix2 i j := ⟨idx 0, idx 1, eq_ix2 idx⟩
  exact combine128_point S T R i j

end Cert.ReferenceIdeal.Stages

end
-- ==== Proof.RefClassify.lean ====
/-
  The reference's classifier read entry by entry. The three feature arrays laid side by side give each node the joined
  row of width 448, so the product with the weight matrix is the sum over 448 terms of the joined row against a
  column. The softmax then works along each row: the row's largest logit (a maximum taken from minus infinity, and
  compared with minus infinity once more), the exponentials of the logits less that maximum, and their quotient by
  the row's sum of exponentials (the sum starts from the zero word, which is the real number zero).
-/
import proofs.«102055_j4252017623285_1_alg».proof.Proof.RefTerms
import proofs.«102055_j4252017623285_1_alg».proof.Proof.Spec
import proofs.«102055_j4252017623285_1_alg».proof.Proof.LibDot
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Stages

open Cert.ReferenceIdeal Cert.ReferenceIdeal.Gen Cert.ReferenceIdeal.Terms Idealize.ShloMosaic Idealize.ShloMosaic.ValueIdx Cert.Spec

/-! ## The logits -/

/-- The three arrays side by side, read at row i and column k: the joined row of node i. -/
theorem joined_apply (R0 : FVec Ideal S50000x64 .f32) (R1 : FVec Ideal S50000x128 .f32) (R2 : FVec Ideal S50000x256 .f32)
    (i : Fin 50000) (k : Fin 448) :
    concatenate S50000x448 1 [⟨S50000x64, R0⟩, ⟨S50000x128, R1⟩, ⟨S50000x256, R2⟩]
        concatenates_S50000x64_S50000x128_S50000x256_S50000x448_d1 (ix2 i k)
      = joinRow (row R0 i) (row R1 i) (row R2 i) k := by
  unfold joinRow row
  by_cases h0 : k.val < 64
  · rw [dif_pos h0]
    exact concatenate_apply_piece (t := S50000x448) (1 : Fin 2) _ _ (ix2 i k) 0 (by show (0 : ℕ) < 3; omega) S50000x64 R0 rfl rfl 0 rfl
      (ix2 i ⟨k.val, h0⟩) (fun c hc => by match c with | ⟨0, _⟩ => rfl | ⟨1, _⟩ => exact absurd rfl hc)
      (by show 0 + k.val = k.val; omega)
  · rw [dif_neg h0]
    by_cases h1 : k.val < 192
    · rw [dif_pos h1]
      exact concatenate_apply_piece (t := S50000x448) (1 : Fin 2) _ _ (ix2 i k) 1 (by show (1 : ℕ) < 3; omega) S50000x128 R1 rfl rfl 64 rfl
        (ix2 i ⟨k.val - 64, by omega⟩) (fun c hc => by match c with | ⟨0, _⟩ => rfl | ⟨1, _⟩ => exact absurd rfl hc)
        (by show 64 + (k.val - 64) = k.val; omega)
    · rw [dif_neg h1]
      exact concatenate_apply_piece (t := S50000x448) (1 : Fin 2) _ _ (ix2 i k) 2 (by show (2 : ℕ) < 3; omega) S50000x256 R2 rfl rfl 192 rfl
        (ix2 i ⟨k.val - 192, by have := k.isLt; omega⟩) (fun c hc => by match c with | ⟨0, _⟩ => rfl | ⟨1, _⟩ => exact absurd rfl hc)
        (by show 192 + (k.val - 192) = k.val; omega)

/-- Entry (i, j) of the logits: the joined row of node i against column j of the weights. -/
theorem logits_point (R0 : FVec Ideal S50000x64 .f32) (R1 : FVec Ideal S50000x128 .f32) (R2 : FVec Ideal S50000x256 .f32)
    (W : FVec Ideal S448x64 .f32) (i : Fin 50000) (j : Fin 64) :
    logitsHost R0 R1 R2 W (ix2 i j) = joinedLogitsRow (row R0 i) (row R1 i) (row R2 i) W j := by
  unfold logitsHost joinedLogitsRow
  refine (LibDot.hostDot_apply _ _ W i j).trans ?_
  exact Finset.sum_congr rfl fun k _ => congrArg (fun v => v * W (ix2 k j)) (joined_apply R0 R1 R2 i k)

/-- Row i of the logits is the logits of node i. -/
theorem logits_row (R0 : FVec Ideal S50000x64 .f32) (R1 : FVec Ideal S50000x128 .f32) (R2 : FVec Ideal S50000x256 .f32)
    (W : FVec Ideal S448x64 .f32) (i : Fin 50000) :
    row (logitsHost R0 R1 R2 W) i = joinedLogitsRow (row R0 i) (row R1 i) (row R2 i) W := by
  funext j
  exact logits_point R0 R1 R2 W i j

/-! ## Along a row: the maximum, the sum, and a column spread back over the row -/

/-- The index of row i with k inserted as the column is (i, k). -/
theorem lift_row (h : S50000x64.Reduces [(1 : Fin 2)] S50000) (i : Fin 50000) (k : Fin 64) : h.lift (ix1 i) k = ix2 i k :=
  funext fun a => Fin.ext (by match a with | ⟨0, _⟩ => rfl | ⟨1, _⟩ => rfl)

/-- The maximum along each row, from the word of minus infinity, at row i. -/
theorem rowMax_apply (L : FVec Ideal S50000x64 .f32) (i : Fin 50000) :
    Host.reduce FloatOps.maximumf L (constant (F := Ideal) S_ .f32 0xFF800000#32) reducesTo_S50000x64_S50000_d1 h_S_ (ix1 i)
      = (Finset.univ : Finset (Fin 64)).fold max negInfW (fun k => L (ix2 i k)) := by
  have h : S50000x64.Reduces [(1 : Fin 2)] S50000 := by decide
  have e := Host.reduce_eq_fold_single (s := S50000x64) (t := S50000) (u := S_) (a := (1 : Fin 2))
    (FloatOps.maximumf (F := Ideal) (φ := .f32)) L (constant (F := Ideal) S_ .f32 0xFF800000#32)
    reducesTo_S50000x64_S50000_d1 h h_S_ (ix1 i)
  refine e.trans ?_
  exact Finset.fold_congr fun k _ => congrArg L (lift_row h i k)

/-- The sum along each row, from the zero word, at row i. -/
theorem rowAdd_apply (E : FVec Ideal S50000x64 .f32) (i : Fin 50000) :
    Host.reduceAdd (F := Ideal) E (constant (F := Ideal) S_ .f32 0x00000000#32) reducesTo_S50000x64_S50000_d1 h_S_ (ix1 i)
      = ∑ k : Fin 64, E (ix2 i k) := by
  have h : S50000x64.Reduces [(1 : Fin 2)] S50000 := by decide
  rw [hostReduceAdd_apply]
  refine (Ideal.hostReduceAdd_single reducesTo_S50000x64_S50000_d1 h E _ (ix1 i)).trans ?_
  rw [constant_apply, Ideal.ofBits_zero_f32, zero_add]
  exact Finset.sum_congr rfl fun k _ => congrArg E (lift_row h i k)

/-- One value per row, stood up as a column and spread over the 64 columns, reads the row's value everywhere. -/
theorem colSpread_apply (v : S50000.Idx → EReal) (i : Fin 50000) (j : Fin 64) :
    broadcastInDim S50000x64 ![0, 1] bcast_S50000x1_S50000x64_0_1 (broadcastInDim S50000x1 ![0] bcast_S50000_S50000x1_0 v) (ix2 i j)
      = v (ix1 i) := by
  refine (broadcastInDim_apply (s := S50000x1) (t := S50000x64) ![0, 1] bcast_S50000x1_S50000x64_0_1 _ (ix2 i j) (ix2 i (0 : Fin 1))
    (fun a => by match a with | ⟨0, _⟩ => rfl | ⟨1, _⟩ => rfl)).trans ?_
  exact broadcastInDim_apply (s := S50000) (t := S50000x1) ![0] bcast_S50000_S50000x1_0 v (ix2 i (0 : Fin 1)) (ix1 i)
    (fun a => by match a with | ⟨0, _⟩ => rfl)

/-! ## The softmax -/

/-- The spread row maximum at (i, j) is the largest logit of row i. -/
theorem top_point (L : FVec Ideal S50000x64 .f32) (i : Fin 50000) (j : Fin 64) : topHost L (ix2 i j) = rowTop (row L i) := by
  unfold topHost rowTop row
  rw [colSpread_apply, maximumf_apply, broadcastInDim_scalar_apply, constant_apply]
  exact congrArg (fun v => max negInfW v) (rowMax_apply L i)

/-- The exponential of a logit less its row's largest. -/
theorem exp_point (L : FVec Ideal S50000x64 .f32) (i : Fin 50000) (j : Fin 64) :
    expHost L (ix2 i j) = Ideal.exp (L (ix2 i j) - rowTop (row L i)) := by
  unfold expHost
  show Ideal.exp (L (ix2 i j) - topHost L (ix2 i j)) = _
  rw [top_point]

/-- Entry (i, j) of the softmax is the softmax of row i at j. -/
theorem softmax_point (L : FVec Ideal S50000x64 .f32) (i : Fin 50000) (j : Fin 64) :
    softmaxHost L (ix2 i j) = softmaxRow (row L i) j := by
  unfold softmaxHost softmaxRow
  rw [hostDivf_apply, colSpread_apply, rowAdd_apply, exp_point]
  exact congrArg (Ideal.div _) (Finset.sum_congr rfl fun k _ => exp_point L i k)

/-! ## The classifier -/

theorem classify_stage (R0 : FVec Ideal S50000x64 .f32) (R1 : FVec Ideal S50000x128 .f32) (R2 : FVec Ideal S50000x256 .f32)
    (W : FVec Ideal S448x64 .f32) : classifyHost R0 R1 R2 W = classifyJoinedArr R0 R1 R2 W := by
  funext idx
  obtain ⟨i, j, rfl⟩ : ∃ (i : Fin 50000) (j : Fin 64), idx = ix2 i j := ⟨idx 0, idx 1, eq_ix2 idx⟩
  unfold classifyHost
  refine (softmax_point _ i j).trans ?_
  rw [logits_row]
  rfl

end Cert.ReferenceIdeal.Stages

end
-- ==== Proof.SpecLaw.lean ====
/-
  The one law that joins the two arrangements of the classifier. The reference multiplies the joined row
  `[r0 ‖ r1 ‖ r2]` (448 entries) with the whole weight matrix; the kernel multiplies r0, r1, r2 with the matrix's rows
  0–63, 64–191, 192–447 and adds the three products. A sum over 448 indices is the sum over the first 64, plus the next
  128, plus the last 256 — addition of extended reals is commutative and associative, so nothing about finiteness is
  used — and on each stretch the joined row is the corresponding piece and the matrix row is the corresponding block's.
  Also: a matrix's row slice, as the array operation cuts it, is `rowsFrom`.
-/
import proofs.«102055_j4252017623285_1_alg».proof.Proof.Spec
import Idealize.ShloMosaic.Lib.ValueLayout
import Mathlib.Algebra.BigOperators.Fin

noncomputable section

namespace Cert.Spec

open Idealize.ShloMosaic Idealize.ShloMosaic.ValueIdx

/-- Two indices with the same coordinates are the same index. -/
theorem ix2_congr {a b : Nat} {i i' : Fin a} {j j' : Fin b} (hi : i.val = i'.val) (hj : j.val = j'.val) :
    ix2 i j = ix2 i' j' := by
  have ei : i = i' := Fin.ext hi
  have ej : j = j' := Fin.ext hj
  rw [ei, ej]

/-- An entry of a block of rows is the matrix's entry at the row shifted by the block's first row. -/
theorem rowsFrom_apply {n d : Nat} (m o : Nat) (h : o + m ≤ n) (W : Arr n d) (k : Fin m) (j : Fin d) :
    rowsFrom m o h W (ix2 k j) = W (ix2 ⟨o + k.val, by have := k.isLt; omega⟩ j) := by
  unfold rowsFrom
  exact congrArg W (ix2_congr rfl rfl)

/-- The joined row's product with the whole matrix is the three pieces' products with its three blocks of rows. -/
theorem joinedLogitsRow_eq (r0 : Fin 64 → EReal) (r1 : Fin 128 → EReal) (r2 : Fin 256 → EReal) (W : Arr 448 64) :
    joinedLogitsRow r0 r1 r2 W
      = logitsRow r0 r1 r2 (rowsFrom 64 0 (by omega) W) (rowsFrom 128 64 (by omega) W) (rowsFrom 256 192 (by omega) W) := by
  funext j
  unfold joinedLogitsRow logitsRow
  have e : (∑ k : Fin 448, joinRow r0 r1 r2 k * W (ix2 k j))
      = ∑ k : Fin (64 + 128 + 256), joinRow r0 r1 r2 k * W (ix2 k j) := rfl
  rw [e, Fin.sum_univ_add, Fin.sum_univ_add]
  refine congrArg₂ (· + ·) (congrArg₂ (· + ·) ?_ ?_) ?_
  · refine Finset.sum_congr rfl fun k _ => ?_
    have hk : k.val < 64 := k.isLt
    have hj : joinRow r0 r1 r2 (Fin.castAdd 256 (Fin.castAdd 128 k)) = r0 k := by
      unfold joinRow
      rw [dif_pos (show (Fin.castAdd 256 (Fin.castAdd 128 k)).val < 64 from hk)]
      exact congrArg r0 (Fin.ext rfl)
    rw [hj, rowsFrom_apply]
    exact congrArg (fun z => r0 k * W z) (ix2_congr (by show k.val = 0 + k.val; omega) rfl)
  · refine Finset.sum_congr rfl fun k _ => ?_
    have hk : k.val < 128 := k.isLt
    have hv : (Fin.castAdd 256 (Fin.natAdd 64 k)).val = 64 + k.val := rfl
    have hj : joinRow r0 r1 r2 (Fin.castAdd 256 (Fin.natAdd 64 k)) = r1 k := by
      unfold joinRow
      rw [dif_neg (by rw [hv]; omega), dif_pos (by rw [hv]; omega)]
      exact congrArg r1 (Fin.ext (by show (Fin.castAdd 256 (Fin.natAdd 64 k)).val - 64 = k.val; rw [hv]; omega))
    rw [hj, rowsFrom_apply]
    exact congrArg (fun z => r1 k * W z) (ix2_congr hv rfl)
  · refine Finset.sum_congr rfl fun k _ => ?_
    have hk : k.val < 256 := k.isLt
    have hv : (Fin.natAdd (64 + 128) k).val = 192 + k.val := rfl
    have hj : joinRow r0 r1 r2 (Fin.natAdd (64 + 128) k) = r2 k := by
      unfold joinRow
      rw [dif_neg (by rw [hv]; omega), dif_neg (by rw [hv]; omega)]
      exact congrArg r2 (Fin.ext (by show (Fin.natAdd (64 + 128) k).val - 192 = k.val; rw [hv]; omega))
    rw [hj, rowsFrom_apply]
    exact congrArg (fun z => r2 k * W z) (ix2_congr hv rfl)

/-- So the class probabilities in the reference's arrangement are those in the kernel's, at the matrix's three blocks. -/
theorem classifyJoinedArr_eq {n : Nat} (R0 : Arr n 64) (R1 : Arr n 128) (R2 : Arr n 256) (W : Arr 448 64) :
    classifyJoinedArr R0 R1 R2 W
      = classifyArr R0 R1 R2 (rowsFrom 64 0 (by omega) W) (rowsFrom 128 64 (by omega) W) (rowsFrom 256 192 (by omega) W) := by
  funext idx
  unfold classifyJoinedArr classifyArr
  rw [joinedLogitsRow_eq]

/-- A matrix cut along its rows from `o`, as the array operation cuts it, is that block of rows. -/
theorem slice_rows_eq {n d : Nat} (m o : Nat) (hle : o + m ≤ n) (W : Arr n d)
    (h : (⟨2, ![n, d]⟩ : Shape).Slices ![o, 0] ⟨2, ![m, d]⟩) :
    extractStridedSlice ⟨2, ![m, d]⟩ ![o, 0] W h = rowsFrom m o hle W := by
  funext idx
  obtain ⟨k, j, rfl⟩ : ∃ (k : Fin m) (j : Fin d), idx = ix2 k j := ⟨idx 0, idx 1, eq_ix2 idx⟩
  rw [rowsFrom_apply]
  exact slice2_axis0_apply o W h k j _ rfl

end Cert.Spec

end
-- ==== Proof.Bridge.lean ====
/-
  The two programs compute one function. The reference's value is the classifier, in its joined arrangement, of the
  embedding and the two hops' features, each stage spelt with host operations; stage by stage those are the
  specification's row-wise functions (the stage readings), the propagation along the edges is the same array operation
  in both programs, the joined classifier is the three-block one by the law of the cut sum, and the weight matrix's three
  slices are its three blocks of rows. So the reference's value is the kernel's.
-/
import proofs.«102055_j4252017623285_1_alg».proof.Proof.KValue
import proofs.«102055_j4252017623285_1_alg».proof.Proof.RefRead
import proofs.«102055_j4252017623285_1_alg».proof.Proof.RefDense
import proofs.«102055_j4252017623285_1_alg».proof.Proof.RefClassify
import proofs.«102055_j4252017623285_1_alg».proof.Proof.SpecLaw

noncomputable section

namespace Cert.Bridge

open Idealize.ShloMosaic Cert.Spec

/-- The propagation along the edges is one array operation, whichever program spells it. -/
theorem spread64_eq (rows cols : Cert.ReferenceIdeal.Terms.Ends) (vals : FVec Ideal Cert.ReferenceIdeal.S800000 .f32)
    (R : FVec Ideal Cert.ReferenceIdeal.S50000x64 .f32) :
    Cert.ReferenceIdeal.Terms.spread64Host rows cols vals R = Cert.KernelIdeal.Terms.spread64 rows cols vals R := rfl

theorem spread128_eq (rows cols : Cert.ReferenceIdeal.Terms.Ends) (vals : FVec Ideal Cert.ReferenceIdeal.S800000 .f32)
    (R : FVec Ideal Cert.ReferenceIdeal.S50000x128 .f32) :
    Cert.ReferenceIdeal.Terms.spread128Host rows cols vals R = Cert.KernelIdeal.Terms.spread128 rows cols vals R := rfl

/-- The kernel's three slices of the weight matrix are its three blocks of rows. -/
theorem weights0_eq (W : FVec Ideal Cert.KernelIdeal.S448x64 .f32) :
    Cert.KernelIdeal.Terms.weights0 W = rowsFrom 64 0 (by omega) W := slice_rows_eq 64 0 (by omega) W _
theorem weights1_eq (W : FVec Ideal Cert.KernelIdeal.S448x64 .f32) :
    Cert.KernelIdeal.Terms.weights1 W = rowsFrom 128 64 (by omega) W := slice_rows_eq 128 64 (by omega) W _
theorem weights2_eq (W : FVec Ideal Cert.KernelIdeal.S448x64 .f32) :
    Cert.KernelIdeal.Terms.weights2 W = rowsFrom 256 192 (by omega) W := slice_rows_eq 256 192 (by omega) W _

/-- The reference's value of six arrays is the kernel's value of the same arrays. -/
theorem value_eq (X : FVec Ideal Cert.ReferenceIdeal.S50000x256 .f32) (rows cols : Cert.ReferenceIdeal.Terms.Ends)
    (vals : FVec Ideal Cert.ReferenceIdeal.S800000 .f32) (W4 : FVec Ideal Cert.ReferenceIdeal.S256x64 .f32)
    (W5 : FVec Ideal Cert.ReferenceIdeal.S448x64 .f32) :
    Cert.ReferenceIdeal.Line.refValue X rows cols vals W4 W5 = Cert.KernelIdeal.Terms.valueOf X rows cols vals W4 W5 := by
  unfold Cert.ReferenceIdeal.Line.refValue Cert.KernelIdeal.Terms.valueOf
  simp only [Cert.ReferenceIdeal.Stages.embed_stage, Cert.ReferenceIdeal.Stages.combine64_stage,
    Cert.ReferenceIdeal.Stages.combine128_stage, Cert.ReferenceIdeal.Stages.classify_stage, spread64_eq, spread128_eq,
    classifyJoinedArr_eq, weights0_eq, weights1_eq, weights2_eq]

end Cert.Bridge

end
-- ==== Proof.lean ====
/-
  The certificate of the graph network's forward pass: a Pallas kernel of four regions (the embedding, two hop
  combinations, the classifier with its softmax) among host propagations along the edges, against the plain array
  program.

  At the ideal values both programs compute ONE function of the six arguments. Every dense stage acts row by row
  (Spec): the embedding max(x · W, 0); the hop combination max([s − r ‖ (t − s) − r], 0); the classifier, a softmax of
  logits that the kernel sums as (r0 · W0 + r1 · W1) + r2 · W2 over the weight matrix's three blocks of rows and the
  reference as [r0 ‖ r1 ‖ r2] · W — one sum of 448 terms cut at 64 and 192 (SpecLaw), which uses only that addition of
  extended reals is commutative and associative, so the inputs' finiteness is never opened. The propagation along the
  edges is the same array operation in both programs and is carried unopened.

  The kernel side: each region's output array is the stage's row-wise function of the arrays the region finds (KEmbed,
  KCombine64, KCombine128, KClassify); the buffers are followed through the regions and the host stretches between them
  (KHost, KChain) along the run that names every buffer at the end (KRun). The reference side: its line of operations is
  read segment by segment (RefLine, RefRead), and each stage's host operations are the same row-wise function (RefDense,
  RefClassify). Bridge joins the two values. The three frames are the generated frame certificates and the reference's
  run with its result dropped; the idealization rewrote nothing, so there is nothing to preserve.
-/
import proofs.«102055_j4252017623285_1_alg».proof.Defs
import proofs.«102055_j4252017623285_1_alg».proof.Proof.Gen.Kernel
import proofs.«102055_j4252017623285_1_alg».proof.Proof.Gen.Kernel.Frame
import proofs.«102055_j4252017623285_1_alg».proof.Proof.Gen.KernelIdeal
import proofs.«102055_j4252017623285_1_alg».proof.Proof.Gen.KernelIdeal.Frame
import proofs.«102055_j4252017623285_1_alg».proof.Proof.Gen.ReferenceIdeal
import proofs.«102055_j4252017623285_1_alg».proof.Proof.Gen.Pre_finite_inputs
import proofs.«102055_j4252017623285_1_alg».proof.Proof.KRun
import proofs.«102055_j4252017623285_1_alg».proof.Proof.KChain
import proofs.«102055_j4252017623285_1_alg».proof.Proof.RefRead
import proofs.«102055_j4252017623285_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel and its idealization run, terminate, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ

/-- The reference runs, terminates, and leaves its arguments as launched: no operation of its line writes one. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.Line.ops_keeps_main_arg0 _),
       (h c Cert.ReferenceIdeal.main_arg1).trans (Cert.ReferenceIdeal.Line.ops_keeps_main_arg1 _),
       (h c Cert.ReferenceIdeal.main_arg2).trans (Cert.ReferenceIdeal.Line.ops_keeps_main_arg2 _),
       (h c Cert.ReferenceIdeal.main_arg3).trans (Cert.ReferenceIdeal.Line.ops_keeps_main_arg3 _),
       (h c Cert.ReferenceIdeal.main_arg4).trans (Cert.ReferenceIdeal.Line.ops_keeps_main_arg4 _),
       (h c Cert.ReferenceIdeal.main_arg5).trans (Cert.ReferenceIdeal.Line.ops_keeps_main_arg5 _)⟩)
    (Cert.ReferenceIdeal.Line.run_after (F := Ideal) m ρ)

/-- The idealization rewrote no operation. -/
theorem preserves : Cert.preserves_Kernel_KernelIdeal := trivial

/-- From memories that agree on the arguments both idealized programs end with the result buffer at the kernel's value
    of those arguments: the kernel by following its buffers to the last boundary, the reference by reading its line and
    joining the two values. -/
theorem algebraic : Cert.algebraic_KernelIdeal_ReferenceIdeal := by
  intro m ρ m' ρ' _ hagree
  refine ⟨fun c => Cert.KernelIdeal.Terms.valueOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W7_value m ρ c), (h c).2⟩)
      (Cert.KernelIdeal.Run.run_result (F := Ideal) m ρ)
  · refine (θ_run Cert.ReferenceIdeal.defs _ _).mono (fun r h c => ⟨?_,
        (h c Cert.ReferenceIdeal.main_arg0).trans (Cert.ReferenceIdeal.Line.ops_keeps_main_arg0 _),
        (h c Cert.ReferenceIdeal.main_arg1).trans (Cert.ReferenceIdeal.Line.ops_keeps_main_arg1 _),
        (h c Cert.ReferenceIdeal.main_arg2).trans (Cert.ReferenceIdeal.Line.ops_keeps_main_arg2 _),
        (h c Cert.ReferenceIdeal.main_arg3).trans (Cert.ReferenceIdeal.Line.ops_keeps_main_arg3 _),
        (h c Cert.ReferenceIdeal.main_arg4).trans (Cert.ReferenceIdeal.Line.ops_keeps_main_arg4 _),
        (h c Cert.ReferenceIdeal.main_arg5).trans (Cert.ReferenceIdeal.Line.ops_keeps_main_arg5 _)⟩)
      (Cert.ReferenceIdeal.Line.run_after (F := Ideal) m' ρ')
    refine (h c Cert.ReferenceIdeal.main_v76).trans ((Cert.ReferenceIdeal.Line.result_eq _).trans ?_)
    obtain ⟨e0, e1, e2, e3, e4, e5⟩ := hagree c
    show Cert.ReferenceIdeal.Line.refValue
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [e0, e1, e2, e3, e4, e5]
    exact Cert.Bridge.value_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
